-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x50000x64 : Shape := ⟨3, ![32, 50000, 64]⟩
abbrev S256x4096 : Shape := ⟨2, ![256, 4096]⟩
abbrev S256 : Shape := ⟨1, ![256]⟩
abbrev S_ : Shape := ⟨0, ![]⟩

class Facts : Prop where
  bcast_S_S32x50000x64 : S_.BroadcastsInDim S32x50000x64 (![] : Fin 0 → Fin S32x50000x64.rank)
  reducesTo_S32x50000x64_S_d0_1_2 : S32x50000x64.ReducesTo [0, 1, 2] S_
  h_S_ : 0 < S_.numel
  bcast_S_S256x4096 : S_.BroadcastsInDim S256x4096 (![] : Fin 0 → Fin S256x4096.rank)
  reducesTo_S256x4096_S_d0_1 : S256x4096.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S32x50000x64 .f32) (main_arg1 : FVec F S256x4096 .f32) (main_arg2 : FVec F S256 .f32) : IVec S_ 1 :=
  let main_v0 : FVec F S32x50000x64 .f32 := Host.absf main_arg0
  let main_cst : FVec F S_ .f32 := constant S_ .f32 0x7F800000#32
  let main_v1 : FVec F S32x50000x64 .f32 := broadcastInDim S32x50000x64 ![] bcast_S_S32x50000x64 main_cst
  let main_v2 : IVec S32x50000x64 1 := cmpf .olt main_v0 main_v1
  let main_c : IVec S_ 1 := constantI S_ 1 1#1
  let main_v3 : IVec S_ 1 := (fun x v => Host.reduce IntOp.andi x v reducesTo_S32x50000x64_S_d0_1_2 h_S_) main_v2 main_c
  let main_v4 : FVec F S256x4096 .f32 := Host.absf main_arg1
  let main_cst_0 : FVec F S_ .f32 := constant S_ .f32 0x7F800000#32
  let main_v5 : FVec F S256x4096 .f32 := broadcastInDim S256x4096 ![] bcast_S_S256x4096 main_cst_0
  let main_v6 : IVec S256x4096 1 := cmpf .olt main_v4 main_v5
  let main_c_1 : IVec S_ 1 := constantI S_ 1 1#1
  let main_v7 : IVec S_ 1 := (fun x v => Host.reduce IntOp.andi x v reducesTo_S256x4096_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S32x50000x64 : Shape := ⟨3, ![32, 50000, 64]⟩
abbrev S256x4096 : Shape := ⟨2, ![256, 4096]⟩
abbrev S256 : Shape := ⟨1, ![256]⟩
abbrev S32x12500x256 : Shape := ⟨3, ![32, 12500, 256]⟩
abbrev S32x1x4096 : Shape := ⟨3, ![32, 1, 4096]⟩
abbrev S1x12500x256 : Shape := ⟨3, ![1, 12500, 256]⟩
abbrev S1x1x4096 : Shape := ⟨3, ![1, 1, 4096]⟩
abbrev S12500x256 : Shape := ⟨2, ![12500, 256]⟩
abbrev S256x256 : Shape := ⟨2, ![256, 256]⟩
abbrev S64x64 : Shape := ⟨2, ![64, 64]⟩
abbrev S64 : Shape := ⟨1, ![64]⟩
abbrev S64x1 : Shape := ⟨2, ![64, 1]⟩
abbrev S1x64 : Shape := ⟨2, ![1, 64]⟩
abbrev S1x4096 : Shape := ⟨2, ![1, 4096]⟩
abbrev S32x4096 : Shape := ⟨2, ![32, 4096]⟩
abbrev S1x256 : Shape := ⟨2, ![1, 256]⟩
abbrev S32x256 : Shape := ⟨2, ![32, 256]⟩
abbrev S32 : Shape := ⟨1, ![32]⟩
abbrev S32x1 : Shape := ⟨2, ![32, 1]⟩

abbrev nBuf : Space → Nat
  | .hbm => 8
  | .vmem => 8
  | .smem => 0
  | _ => 0

abbrev bufTy : (tb : Table) → Fin (tcTables nBuf tb) → BufTy
  | .hbm, ⟨0, _⟩ => ⟨S32x50000x64, .f32⟩
  | .hbm, ⟨1, _⟩ => ⟨S256x4096, .f32⟩
  | .hbm, ⟨2, _⟩ => ⟨S256, .f32⟩
  | .hbm, ⟨3, _⟩ => ⟨S32x12500x256, .f32⟩
  | .hbm, ⟨4, _⟩ => ⟨S32x1x4096, .f32⟩
  | .hbm, ⟨5, _⟩ => ⟨S32x4096, .f32⟩
  | .hbm, ⟨6, _⟩ => ⟨S1x256, .f32⟩
  | .hbm, ⟨7, _⟩ => ⟨S32x256, .f32⟩
  | .local _ .vmem, ⟨0, _⟩ => ⟨S1x12500x256, .f32⟩
  | .local _ .vmem, ⟨1, _⟩ => ⟨S1x12500x256, .f32⟩
  | .local _ .vmem, ⟨2, _⟩ => ⟨S1x1x4096, .f32⟩
  | .local _ .vmem, ⟨3, _⟩ => ⟨S1x1x4096, .f32⟩
  | .local _ .vmem, ⟨4, _⟩ => ⟨S32x4096, .f32⟩
  | .local _ .vmem, ⟨5, _⟩ => ⟨S256x4096, .f32⟩
  | .local _ .vmem, ⟨6, _⟩ => ⟨S1x256, .f32⟩
  | .local _ .vmem, ⟨7, _⟩ => ⟨S32x256, .f32⟩
  | _, _ => ⟨S32x50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x12500x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S32x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  shapeCasts_S32x50000x64_S32x12500x256 : S32x50000x64.ShapeCasts S32x12500x256
  inb_S1x12500x256_S1x12500x256_0_0_0 : ∀ a, (![0, 0, 0] : Fin 3 → Nat) a + S1x12500x256.size a ≤ S1x12500x256.size a
  h_S1x12500x256 : 0 < S1x12500x256.numel
  shapeCasts_S1x12500x256_S12500x256 : S1x12500x256.ShapeCasts S12500x256
  bitsLt_bf16_f32 : FTy.bits .bf16 < FTy.bits .f32
  slices_S256x256_o0_0_S64x64 : S256x256.Slices ![0, 0] S64x64
  slices_S256x256_o64_64_S64x64 : S256x256.Slices ![64, 64] S64x64
  slices_S256x256_o128_128_S64x64 : S256x256.Slices ![128, 128] S64x64
  slices_S256x256_o192_192_S64x64 : S256x256.Slices ![192, 192] S64x64
  reduces_S12500x256_S256 : S12500x256.Reduces [0] S256
  slices_S256_o0_S64 : S256.Slices ![0] S64
  slices_S256_o64_S64 : S256.Slices ![64] S64
  slices_S256_o128_S64 : S256.Slices ![128] S64
  slices_S256_o192_S64 : S256.Slices ![192] S64
  shapeCasts_S64_S64x1 : S64.ShapeCasts S64x1
  shapeCasts_S64_S1x64 : S64.ShapeCasts S1x64
  broadcasts_S64x1_S64x64 : S64x1.Broadcasts S64x64
  broadcasts_S1x64_S64x64 : S1x64.Broadcasts S64x64
  shapeCasts_S64x64_S1x4096 : S64x64.ShapeCasts S1x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  shapeCasts_S32x1x4096_S32x4096 : S32x1x4096.ShapeCasts S32x4096
  shapeCasts_S256_S1x256 : S256.ShapeCasts S1x256
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  inb_S256x4096_S256x4096_0_0 : ∀ a, (![0, 0] : Fin 2 → Nat) a + S256x4096.size a ≤ S256x4096.size a
  h_S256x4096 : 0 < S256x4096.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S32x256 : S1x256.Broadcasts S32x256
  reduces_S32x256_S32 : S32x256.Reduces [1] S32
  shapeCasts_S32_S32x1 : S32.ShapeCasts S32x1
  broadcasts_S32x1_S32x256 : S32x1.Broadcasts S32x256
  inb_S32x256_S32x256_0_0 : ∀ a, (![0, 0] : Fin 2 → Nat) a + S32x256.size a ≤ S32x256.size a
  h_S32x256 : 0 < S32x256.numel
  dot_S12500x256_S12500x256_S256x256_0_0_1_1_n_n_wf : DotDims.WF S12500x256 S12500x256 S256x256 [0] [0] [1] [1] [] []
  dot_S32x4096_S256x4096_S32x256_1_1_0_0_n_n_wf : DotDims.WF S32x4096 S256x4096 S32x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x12500x256.size a ≤ S32x12500x256.size a
  hwx0_0 : ∀ i : grid0.Coords, EltTy.bits .f32 = 32 ∨ (Rect.block (s := S32x12500x256) S1x12500x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096.size a ≤ S32x1x4096.size a
  hwx0_1 : ∀ i : grid0.Coords, EltTy.bits .f32 = 32 ∨ (Rect.block (s := S32x1x4096) S1x1x4096.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S32x4096.size a ≤ S32x4096.size a
  hwx1_0 : ∀ i : grid1.Coords, EltTy.bits .f32 = 32 ∨ (Rect.block (s := S32x4096) S32x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S256x4096.size a
  hwx1_1 : ∀ i : grid1.Coords, EltTy.bits .f32 = 32 ∨ (Rect.block (s := S256x4096) S256x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x256.size a ≤ S32x256.size a
  hwx1_3 : ∀ i : grid1.Coords, EltTy.bits .f32 = 32 ∨ (Rect.block (s := S32x256) S32x256.size (cc1_transform_3 i) (hinb1_3 i)).WholeWords (EltTy.packing .f32)

variable [Facts₀]

def dot_S12500x256_S12500x256_S256x256_0_0_1_1_n_n : DotDims S12500x256 S12500x256 S256x256 where
  lhsContracting := [0]
  rhsContracting := [0]
  lhsNonContracting := [1]
  rhsNonContracting := [1]
  lhsBatch := []
  rhsBatch := []
  wf := dot_S12500x256_S12500x256_S256x256_0_0_1_1_n_n_wf
def dot_S32x4096_S256x4096_S32x256_1_1_0_0_n_n : DotDims S32x4096 S256x4096 S32x256 where
  lhsContracting := [1]
  rhsContracting := [1]
  lhsNonContracting := [0]
  rhsNonContracting := [0]
  lhsBatch := []
  rhsBatch := []
  wf := dot_S32x4096_S256x4096_S32x256_1_1_0_0_n_n_wf

abbrev win0_0 : Pipeline.Window sig grid0 :=
  Pipeline.Window.ofSpec (Memref.whole main_v0) S1x12500x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v2) S32x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S32x256.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x50000x64 : Shape := ⟨3, ![32, 50000, 64]⟩
abbrev S256x4096 : Shape := ⟨2, ![256, 4096]⟩
abbrev S256 : Shape := ⟨1, ![256]⟩
abbrev S_ : Shape := ⟨0, ![]⟩
abbrev S32x64 : Shape := ⟨2, ![32, 64]⟩
abbrev S32x1x64 : Shape := ⟨3, ![32, 1, 64]⟩
abbrev S32x64x64 : Shape := ⟨3, ![32, 64, 64]⟩
abbrev S32x4096 : Shape := ⟨2, ![32, 4096]⟩
abbrev S4096x256 : Shape := ⟨2, ![4096, 256]⟩
abbrev S32x256 : Shape := ⟨2, ![32, 256]⟩
abbrev S1x256 : Shape := ⟨2, ![1, 256]⟩
abbrev S32 : Shape := ⟨1, ![32]⟩
abbrev S32x1 : Shape := ⟨2, ![32, 1]⟩

abbrev nBuf : Space → Nat
  | .hbm => 31
  | .vmem => 0
  | .smem => 0
  | _ => 0

abbrev bufTy : (tb : Table) → Fin (tcTables nBuf tb) → BufTy
  | .hbm, ⟨0, _⟩ => ⟨S32x50000x64, .f32⟩
  | .hbm, ⟨1, _⟩ => ⟨S256x4096, .f32⟩
  | .hbm, ⟨2, _⟩ => ⟨S256, .f32⟩
  | .hbm, ⟨3, _⟩ => ⟨S_, .f32⟩
  | .hbm, ⟨4, _⟩ => ⟨S32x64, .f32⟩
  | .hbm, ⟨5, _⟩ => ⟨S32x1x64, .f32⟩
  | .hbm, ⟨6, _⟩ => ⟨S_, .f32⟩
  | .hbm, ⟨7, _⟩ => ⟨S32x1x64, .f32⟩
  | .hbm, ⟨8, _⟩ => ⟨S32x1x64, .f32⟩
  | .hbm, ⟨9, _⟩ => ⟨S32x50000x64, .f32⟩
  | .hbm, ⟨10, _⟩ => ⟨S32x50000x64, .f32⟩
  | .hbm, ⟨11, _⟩ => ⟨S32x64x64, .f32⟩
  | .hbm, ⟨12, _⟩ => ⟨S_, .f32⟩
  | .hbm, ⟨13, _⟩ => ⟨S32x64x64, .f32⟩
  | .hbm, ⟨14, _⟩ => ⟨S32x64x64, .f32⟩
  | .hbm, ⟨15, _⟩ => ⟨S32x4096, .f32⟩
  | .hbm, ⟨16, _⟩ => ⟨S4096x256, .f32⟩
  | .hbm, ⟨17, _⟩ => ⟨S32x256, .f32⟩
  | .hbm, ⟨18, _⟩ => ⟨S1x256, .f32⟩
  | .hbm, ⟨19, _⟩ => ⟨S32x256, .f32⟩
  | .hbm, ⟨20, _⟩ => ⟨S32x256, .f32⟩
  | .hbm, ⟨21, _⟩ => ⟨S32x256, .f32⟩
  | .hbm, ⟨22, _⟩ => ⟨S_, .f32⟩
  | .hbm, ⟨23, _⟩ => ⟨S32, .f32⟩
  | .hbm, ⟨24, _⟩ => ⟨S32x1, .f32⟩
  | .hbm, ⟨25, _⟩ => ⟨S32x1, .f32⟩
  | .hbm, ⟨26, _⟩ => ⟨S_, .f32⟩
  | .hbm, ⟨27, _⟩ => ⟨S32x1, .f32⟩
  | .hbm, ⟨28, _⟩ => ⟨S32x1, .f32⟩
  | .hbm, ⟨29, _⟩ => ⟨S32x256, .f32⟩
  | .hbm, ⟨30, _⟩ => ⟨S32x256, .f32⟩
  | _, _ => ⟨S32x50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_cst : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  reducesTo_S32x50000x64_S32x64_d1 : S32x50000x64.ReducesTo [1] S32x64
  h_S_ : 0 < S_.numel
  bcast_S32x64_S32x1x64_0_2 : S32x64.BroadcastsInDim S32x1x64 (![0, 2] : Fin 2 → Fin S32x1x64.rank)
  bcast_S_S32x1x64 : S_.BroadcastsInDim S32x1x64 (![] : Fin 0 → Fin S32x1x64.rank)
  bcast_S32x1x64_S32x50000x64_0_1_2 : S32x1x64.BroadcastsInDim S32x50000x64 (![0, 1, 2] : Fin 3 → Fin S32x50000x64.rank)
  bcast_S_S32x64x64 : S_.BroadcastsInDim S32x64x64 (![] : Fin 0 → Fin S32x64x64.rank)
  shapeCasts_S32x64x64_S32x4096 : S32x64x64.ShapeCasts S32x4096
  transposes_S256x4096_S4096x256_1_0 : S256x4096.Transposes [1, 0] S4096x256
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  reducesTo_S32x256_S32_d1 : S32x256.ReducesTo [1] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x256_0_1 : S32x1.BroadcastsInDim S32x256 (![0, 1] : Fin 2 → Fin S32x256.rank)
  dot_S32x50000x64_S32x50000x64_S32x64x64_1_1_2_2_0_0_wf : DotDims.WF S32x50000x64 S32x50000x64 S32x64x64 [1] [1] [2] [2] [0] [0]
  dot_S32x4096_S4096x256_S32x256_1_0_0_1_n_n_wf : DotDims.WF S32x4096 S4096x256 S32x256 [1] [0] [0] [1] [] []

variable [Facts₀]

def dot_S32x50000x64_S32x50000x64_S32x64x64_1_1_2_2_0_0 : DotDims S32x50000x64 S32x50000x64 S32x64x64 where
  lhsContracting := [1]
  rhsContracting := [1]
  lhsNonContracting := [2]
  rhsNonContracting := [2]
  lhsBatch := [0]
  rhsBatch := [0]
  wf := dot_S32x50000x64_S32x50000x64_S32x64x64_1_1_2_2_0_0_wf
def dot_S32x4096_S4096x256_S32x256_1_0_0_1_n_n : DotDims S32x4096 S4096x256 S32x256 where
  lhsContracting := [1]
  rhsContracting := [0]
  lhsNonContracting := [0]
  rhsNonContracting := [1]
  lhsBatch := []
  rhsBatch := []
  wf := dot_S32x4096_S4096x256_S32x256_1_0_0_1_n_n_wf

class Facts : Prop extends Facts₀ where

variable [Facts]
-- ==== Proof.Spec.lean ====
/-
  The mathematics of the certificate, with no program in sight.

  Per sample the kernel computes the Bessel-corrected covariance of 50000 observations of 64 features in ONE pass,
  from the second moments and the column sums: `(∑ₙ xₙd·xₙe − (∑ₙ xₙd)(∑ₙ xₙe)/N) / (N−1)`. It reads the observations
  four to a row (row `r` of the folded array holds observations `4r … 4r+3`, feature `d` of observation `4r+i` in column
  `64i+d`), so each sum over observations reaches it as four sums over rows, one per position in the row, added up
  from zero. The reference centres first: `∑ₙ (xₙd − μd)(xₙe − μe) / (N−1)` with `μ = (∑ₙ xₙ)/N`.

  * Splitting a sum over 50000 observations into four sums over 12500 rows is a reindexing, true in any commutative
    monoid: no finiteness is needed (`foldedCov_eq_onePass`).
  * One pass against two passes is the identity `∑(a−ā)(b−b̄) = ∑ab − (∑a)(∑b)/N`, which distributes products over sums
    and uses that `N` IS the number of observations: it holds for real entries, and is proved there
    (`onePass_eq_twoPass`).

  Both programs then apply the same map to the flattened covariance: a linear layer, and division of each row by its
  Euclidean norm clamped below (`fcNorm`).
-/
import Idealize.ShloMosaic.PureOps.Ideal
import Idealize.ShloMosaic.PureOps.Ideal.Laws

noncomputable section

namespace Cert.CovFc

open Idealize.ShloMosaic

/-- The float words the two programs share, as the extended reals they denote. -/
abbrev zeroW : EReal := Ideal.ofBits .f32 0x00000000#32
abbrev nW : EReal := Ideal.ofBits .f32 0x47435000#32
abbrev n1W : EReal := Ideal.ofBits .f32 0x47434F00#32
abbrev epsW : EReal := Ideal.ofBits .f32 0x2B8CBCCC#32

theorem zeroW_eq : zeroW = 0 := Ideal.ofBits_zero_f32

/-- The word `50000.0` denotes the real 50000: the number of observations. -/
theorem nW_eq : nW = ((50000 : ℝ) : EReal) := by
  simp [nW, Ideal.ofBits, Ideal.ieee, -EReal.coe_mul]; norm_num

/-! ## Four observations to a row -/

/-- Column `64·i + d` of a folded row: feature `d` of the row's `i`-th observation. -/
def blk (i : Fin 4) (d : Fin 64) : Fin 256 := ⟨64 * i.val + d.val, by have := i.isLt; have := d.isLt; omega⟩

/-- Observation `4·r + i`: the `i`-th of row `r`. -/
def obs (r : Fin 12500) (i : Fin 4) : Fin 50000 := ⟨4 * r.val + i.val, by have := i.isLt; have := r.isLt; omega⟩

/-- The folded array of a sample: row `r`, column `c` holds feature `c % 64` of observation `4r + c / 64`. -/
def fold (x : Fin 50000 → Fin 64 → EReal) : Fin 12500 → Fin 256 → EReal :=
  fun r c => x ⟨4 * r.val + c.val / 64, by have := r.isLt; have := c.isLt; omega⟩ ⟨c.val % 64, Nat.mod_lt _ (by decide)⟩

theorem fold_blk (x : Fin 50000 → Fin 64 → EReal) (r : Fin 12500) (i : Fin 4) (d : Fin 64) :
    fold x r (blk i d) = x (obs r i) d := by
  have hi := i.isLt; have hd := d.isLt
  unfold fold blk obs
  congr 1 <;> apply Fin.ext <;> simp only <;> omega

/-- A sum over the 50000 observations is the sum over the 12500 rows of the four observations of each row. -/
theorem sum_obs {M : Type*} [AddCommMonoid M] (g : Fin 50000 → M) :
    ∑ n, g n = ∑ r : Fin 12500, (g (obs r 0) + g (obs r 1) + g (obs r 2) + g (obs r 3)) := by
  let ε : Fin 12500 × Fin 4 ≃ Fin 50000 := finProdFinEquiv.trans (finCongr (by norm_num))
  refine (Equiv.sum_comp ε g).symm.trans ?_
  rw [Fintype.sum_prod_type]
  refine Finset.sum_congr rfl fun r _ => ?_
  rw [Fin.sum_univ_four]
  have h : ∀ i : Fin 4, ε (r, i) = obs r i := fun i => Fin.ext (by
    show i.val + 4 * r.val = 4 * r.val + i.val; omega)
  rw [h 0, h 1, h 2, h 3]

/-- So four per-position sums over the rows, added up from zero, are the sum over the observations. -/
theorem four_sums {M : Type*} [AddCommMonoid M] (g : Fin 50000 → M) :
    (((0 + ∑ r, g (obs r 0)) + ∑ r, g (obs r 1)) + ∑ r, g (obs r 2)) + ∑ r, g (obs r 3) = ∑ n, g n := by
  rw [sum_obs g, Finset.sum_add_distrib, Finset.sum_add_distrib, Finset.sum_add_distrib, zero_add]

/-! ## The covariance, three ways -/

/-- A column sum as the kernel forms it: the four per-position sums over the rows, from zero. -/
def colSum4 (xf : Fin 12500 → Fin 256 → EReal) (d : Fin 64) : EReal :=
  (((zeroW + ∑ r, xf r (blk 0 d)) + ∑ r, xf r (blk 1 d)) + ∑ r, xf r (blk 2 d)) + ∑ r, xf r (blk 3 d)

/-- A second moment as the kernel forms it: the four diagonal blocks of the folded Gram matrix, from zero. -/
def gram4 (xf : Fin 12500 → Fin 256 → EReal) (d e : Fin 64) : EReal :=
  (((zeroW + ∑ r, xf r (blk 0 d) * xf r (blk 0 e)) + ∑ r, xf r (blk 1 d) * xf r (blk 1 e))
    + ∑ r, xf r (blk 2 d) * xf r (blk 2 e)) + ∑ r, xf r (blk 3 d) * xf r (blk 3 e)

/-- The kernel's covariance entry, from the folded array. -/
def foldedCov (xf : Fin 12500 → Fin 256 → EReal) (d e : Fin 64) : EReal :=
  Ideal.div (gram4 xf d e - Ideal.div (colSum4 xf d * colSum4 xf e) nW) n1W

/-- The same in one pass over the observations themselves. -/
def onePassCov (x : Fin 50000 → Fin 64 → EReal) (d e : Fin 64) : EReal :=
  Ideal.div ((∑ n, x n d * x n e) - Ideal.div ((∑ n, x n d) * (∑ n, x n e)) nW) n1W

/-- The reference's covariance entry: centre, then multiply and sum. -/
def twoPassCov (x : Fin 50000 → Fin 64 → EReal) (d e : Fin 64) : EReal :=
  Ideal.div (∑ n, (x n d - Ideal.div (zeroW + ∑ n', x n' d) nW) * (x n e - Ideal.div (zeroW + ∑ n', x n' e) nW)) n1W

theorem foldedCov_eq_onePass (x : Fin 50000 → Fin 64 → EReal) (d e : Fin 64) :
    foldedCov (fold x) d e = onePassCov x d e := by
  unfold foldedCov onePassCov gram4 colSum4
  simp only [fold_blk, zeroW_eq]
  rw [four_sums (fun n => x n d * x n e), four_sums (fun n => x n d), four_sums (fun n => x n e)]

/-- A finite sum of reals, read in the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The identity over the reals, with `c` standing for `1/N`. -/
theorem real_cov (a b : Fin 50000 → ℝ) :
    (∑ n, a n * b n) - ((∑ n, a n) * (∑ n, b n)) * (1 / 50000)
      = ∑ n, (a n - (0 + ∑ n', a n') * (1 / 50000)) * (b n - (0 + ∑ n', b n') * (1 / 50000)) := by
  set A := ∑ n, a n with hA
  set B := ∑ n, b n with hB
  have h : ∀ n, (a n - (0 + A) * (1 / 50000)) * (b n - (0 + B) * (1 / 50000))
      = a n * b n - (B * (1 / 50000)) * a n - (A * (1 / 50000)) * b n + A * (1 / 50000) * (B * (1 / 50000)) := fun n => by ring
  simp only [h]
  rw [Finset.sum_add_distrib, Finset.sum_sub_distrib, Finset.sum_sub_distrib, ← Finset.mul_sum, ← Finset.mul_sum,
    Finset.sum_const, Finset.card_univ, Fintype.card_fin, ← hA, ← hB]
  simp only [nsmul_eq_mul]
  push_cast
  ring

/-- One pass is two passes, for real entries. -/
theorem onePass_eq_twoPass (x : Fin 50000 → Fin 64 → EReal) (hx : ∀ n d, ∃ r : ℝ, x n d = (r : EReal)) (d e : Fin 64) :
    onePassCov x d e = twoPassCov x d e := by
  choose xr hxr using hx
  unfold onePassCov twoPassCov
  refine congrArg (Ideal.div · n1W) ?_
  have h50 : (50000 : ℝ) ≠ 0 := by norm_num
  simp only [hxr, zeroW_eq, nW_eq, Ideal.div_coe h50, coe_sum, ← EReal.coe_mul, ← EReal.coe_sub, ← EReal.coe_zero,
    ← EReal.coe_add]
  exact congrArg _ (real_cov (fun n => xr n d) (fun n => xr n e))

theorem foldedCov_eq_twoPass (x : Fin 50000 → Fin 64 → EReal) (hx : ∀ n d, ∃ r : ℝ, x n d = (r : EReal)) (d e : Fin 64) :
    foldedCov (fold x) d e = twoPassCov x d e :=
  (foldedCov_eq_onePass x d e).trans (onePass_eq_twoPass x hx d e)

/-! ## The linear layer and the row normalisation -/

/-- Entry `k` of a sample's flattened 64×64 covariance is entry `(k / 64, k % 64)`. -/
def flatten (cov : Fin 32 → Fin 64 → Fin 64 → EReal) : Fin 32 → Fin 4096 → EReal :=
  fun s k => cov s ⟨k.val / 64, by have := k.isLt; omega⟩ ⟨k.val % 64, Nat.mod_lt _ (by decide)⟩

/-- The linear layer's output for sample `s`, unit `o`. -/
def logit (flat : Fin 32 → Fin 4096 → EReal) (W : Fin 256 → Fin 4096 → EReal) (bias : Fin 256 → EReal) (s : Fin 32) (o : Fin 256) : EReal :=
  (∑ k, flat s k * W o k) + bias o

/-- That output divided by its row's Euclidean norm, the norm clamped below. -/
def fcNorm (flat : Fin 32 → Fin 4096 → EReal) (W : Fin 256 → Fin 4096 → EReal) (bias : Fin 256 → EReal) (s : Fin 32) (o : Fin 256) : EReal :=
  Ideal.div (logit flat W bias s o)
    (max (Ideal.sqrt (∑ o', logit flat W bias s o' * logit flat W bias s o')) epsW)

end Cert.CovFc

end
-- ==== Proof.LibKeepdims.lean ====
/-
  Row reductions that keep their axis, read at an index.

  A kernel's `jnp.max(x, axis=-1, keepdims=True)` or `jnp.sum(…, keepdims=True)` on an `[a, b]` array prints as a lane
  reduction to `[a]`, a shape cast to the column `[a, 1]` and a broadcast of the column back to `[a, b]`.  Read at
  `(r, c)` each step names one index of its operand: the broadcast reads the column at `(r, 0)`, the cast reads the vector
  at `r`, and the reduction at `r` runs over the row `k ↦ (r, k)` — as a fold of `max` from the accumulator's value for a
  maximum, as a plain sum for an addition.  All at any extents `a`, `b` and any float format; the indices are written by
  coordinates (`ix1`, `ix2`), so each lemma applies to a printed operation by unification.
-/
import Idealize.ShloMosaic.Lib.ValueLayout
import Idealize.ShloMosaic.PureOps.Ideal.Laws

namespace Idealize.ShloMosaic.ValueIdx

open Idealize.ShloMosaic

variable {α : Type}

/-- An `[a]` vector cast to the column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Over a reduction of `[a, b]` along its last axis, the source index above `r` with `k` on the dropped axis is `(r, k)`. -/
theorem lift_row {a b : ℕ} (h : (⟨2, ![a, b]⟩ : Shape).Reduces [(1 : Fin 2)] ⟨1, ![a]⟩) (r : Fin a) (k : Fin b) :
    h.lift (ix1 r) k = ix2 r k :=
  funext fun c => Fin.ext (by match c with | ⟨0, _⟩ => rfl | ⟨1, _⟩ => rfl)

variable {φ : FTy}

/-- A lane maximum of an `[a, b]` array at row `r`, at the exact values: the fold of `max` from the accumulator's value over the row. -/
theorem multiReduction_maximumf_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (r : Fin a) :
    multiReduction .maximumf [(1 : Fin 2)] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (Finset.fold max (Ideal.ofBits φ acc) · (Finset.univ : Finset (Fin b))) (funext fun k => congrArg src (lift_row h r k))

/-- A lane sum of an `[a, b]` array at row `r`, at the exact values: the sum over the row. -/
theorem multiReduction_add_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (r : Fin a) :
    multiReduction .add [(1 : Fin 2)] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end Idealize.ShloMosaic.ValueIdx
-- ==== Proof.LibRowForms.lean ====
/-
  Three reads at an index beside the library's layout lemmas, at any extents.

  A sum DOWN the columns of an `[a, b]` array (a reduction along its first axis) at column `c` runs over `k ↦ (k, c)`.
  A unit-stride slice of a matrix with an offset on BOTH axes (a diagonal block), or of a vector, reads its operand at
  the index moved by the offsets. A matrix `[a, b]` flattened to a row `[1, n]` reads, at position `k = p·b + q`, the
  matrix at `(p, q)`. The indices are written by coordinates, so each lemma applies to a printed operation by
  unification.
-/
import Idealize.ShloMosaic.Lib.ValueLayout
import Idealize.ShloMosaic.PureOps.Ideal.Laws

namespace Idealize.ShloMosaic.ValueIdx

open Idealize.ShloMosaic

variable {α : Type}

/-- Over a reduction of `[a, b]` along its FIRST axis, the source index above column `c` with `k` on the dropped axis is `(k, c)`. -/
theorem lift_col {a b : ℕ} (h : (⟨2, ![a, b]⟩ : Shape).Reduces [(0 : Fin 2)] ⟨1, ![b]⟩) (c : Fin b) (k : Fin a) :
    h.lift (ix1 c) k = ix2 k c :=
  funext fun d => Fin.ext (by match d with | ⟨0, _⟩ => rfl | ⟨1, _⟩ => rfl)

variable {φ : FTy}

/-- A sum down the columns of an `[a, b]` array at column `c`, at the exact values: the sum over the column. -/
theorem multiReduction_add_col {a b : ℕ} (src : FVec Ideal ⟨2, ![a, b]⟩ φ) (acc : BitVec φ.bits)
    (h : (⟨2, ![a, b]⟩ : Shape).Reduces [(0 : Fin 2)] ⟨1, ![b]⟩) (hφ : FKind.Formats φ) (hacc : acc = FKind.add.neutral φ hφ) (c : Fin b) :
    multiReduction .add [(0 : Fin 2)] ⟨1, ![b]⟩ src acc h hφ hacc (ix1 c) = ∑ k : Fin a, src (ix2 k c) := by
  refine (Ideal.multiReduction_add_single src acc h hφ hacc (ix1 c)).trans ?_
  exact Finset.sum_congr rfl fun k _ => congrArg src (lift_col h c k)

/-- A unit-stride slice of a matrix reads the matrix at the index moved by the offsets. -/
theorem slice2_apply {A B a b : ℕ} (o0 o1 : ℕ) (x : (⟨2, ![A, B]⟩ : Shape).Idx → α)
    (h : (⟨2, ![A, B]⟩ : Shape).Slices ![o0, o1] ⟨2, ![a, b]⟩) (p : Fin a) (q : Fin b) (P : Fin A) (Q : Fin B)
    (hP : P.val = o0 + p.val) (hQ : Q.val = o1 + q.val) :
    extractStridedSlice ⟨2, ![a, b]⟩ ![o0, o1] x h (ix2 p q) = x (ix2 P Q) :=
  extractStridedSlice_apply ![o0, o1] x h (ix2 p q) (ix2 P Q) fun ax => by
    match ax with
    | ⟨0, _⟩ => exact hP
    | ⟨1, _⟩ => exact hQ

/-- A unit-stride slice of a vector reads the vector at the index moved by the offset. -/
theorem slice1_apply {A a : ℕ} (o : ℕ) (x : (⟨1, ![A]⟩ : Shape).Idx → α)
    (h : (⟨1, ![A]⟩ : Shape).Slices ![o] ⟨1, ![a]⟩) (p : Fin a) (P : Fin A) (hP : P.val = o + p.val) :
    extractStridedSlice ⟨1, ![a]⟩ ![o] x h (ix1 p) = x (ix1 P) :=
  extractStridedSlice_apply ![o] x h (ix1 p) (ix1 P) fun ax => by
    match ax with
    | ⟨0, _⟩ => exact hP

/-- A matrix `[a, b]` flattened to the row `[1, a·b]` reads, at `(u, k)`, the matrix at `(k / b, k % b)`. -/
theorem shapeCast_ab_1n_apply {a b n : ℕ} (v : (⟨2, ![a, b]⟩ : Shape).Idx → α) (h : (⟨2, ![a, b]⟩ : Shape).ShapeCasts ⟨2, ![1, n]⟩)
    (u : Fin 1) (k : Fin n) (p : Fin a) (q : Fin b) (hk : k.val = p.val * b + q.val) :
    shapeCast ⟨2, ![1, n]⟩ v h (ix2 u k) = v (ix2 p q) :=
  shapeCast_apply v h _ _ (by
    have hu : u.val = 0 := by omega
    rw [Shape.rowMajor_val_two, Shape.rowMajor_val_two]
    show p.val * b + q.val = u.val * n + k.val
    rw [hu, hk, Nat.zero_mul, Nat.zero_add])

end Idealize.ShloMosaic.ValueIdx
-- ==== Proof.CovBody.lean ====
/-
  What the covariance kernel stores, read at an index.

  At one sample the kernel is handed the folded block `[1, 12500, 256]` and stores the row `[1, 1, 4096]`. Reading the
  printed operations from the load down: the block's rows; their Gram matrix `Gᵖq = ∑ᵣ xᵣp·xᵣq` (one contraction over the
  12500 rows, onto zero); the sum of its four diagonal 64×64 blocks, from zero; the column sums `∑ᵣ xᵣc` and the sum of
  their four 64-segments, from zero; the outer product of that vector with itself over the number of observations,
  subtracted, and the difference over one less; and the 64×64 result laid out as a row. So position `k` of the stored
  row is the folded one-pass covariance entry `(k / 64, k % 64)` of the block (`Cert.CovFc.foldedCov`).
-/
import proofs.«160932_j68101001445527_2_alg».proof.Proof.Gen.KernelIdeal.Skeleton
import proofs.«160932_j68101001445527_2_alg».proof.Proof.Spec
import proofs.«160932_j68101001445527_2_alg».proof.Proof.LibKeepdims
import proofs.«160932_j68101001445527_2_alg».proof.Proof.LibRowForms
import Idealize.ShloMosaic.Lib.ValueIdx
import Idealize.ShloMosaic.Lib.ValueLayout
import Idealize.ShloMosaic.Lib.Pipeline.Value
import Idealize.ShloMosaic.PureOps.Ideal.Laws

noncomputable section

namespace Cert.CovFc.CovBody

open Cert.KernelIdeal Cert.KernelIdeal.Gen Idealize.ShloMosaic Idealize.ShloMosaic.ValueIdx Cert.CovFc

/-! ## The columns of a folded row, by position -/

theorem blk0_val (d : Fin 64) : (blk 0 d).val = 0 + d.val := by show 64 * 0 + d.val = 0 + d.val; omega
theorem blk1_val (d : Fin 64) : (blk 1 d).val = 64 + d.val := by show 64 * 1 + d.val = 64 + d.val; omega
theorem blk2_val (d : Fin 64) : (blk 2 d).val = 128 + d.val := by show 64 * 2 + d.val = 128 + d.val; omega
theorem blk3_val (d : Fin 64) : (blk 3 d).val = 192 + d.val := by show 64 * 3 + d.val = 192 + d.val; omega

/-! ## The Gram matrix of the rows -/

theorem lhsG_0 (i : S256x256.Idx) (q : dot_S12500x256_S12500x256_S256x256_0_0_1_1_n_n.contr.Idx) : (dot_S12500x256_S12500x256_S256x256_0_0_1_1_n_n.lhsIdx i q 0).val = (q ⟨0, by decide⟩).val :=
  dot_S12500x256_S12500x256_S256x256_0_0_1_1_n_n.lhsIdx_val_of_single rfl i q
theorem lhsG_1 (i : S256x256.Idx) (q : dot_S12500x256_S12500x256_S256x256_0_0_1_1_n_n.contr.Idx) : (dot_S12500x256_S12500x256_S256x256_0_0_1_1_n_n.lhsIdx i q 1).val = (i 0).val := by
  unfold DotDims.lhsIdx
  rw [dif_neg (show ¬(1 : Fin S12500x256.rank) ∈ dot_S12500x256_S12500x256_S256x256_0_0_1_1_n_n.lhsBatch by decide),
    dif_pos (show (1 : Fin S12500x256.rank) ∈ dot_S12500x256_S12500x256_S256x256_0_0_1_1_n_n.lhsNonContracting by decide)]
  rfl
theorem rhsG_0 (i : S256x256.Idx) (q : dot_S12500x256_S12500x256_S256x256_0_0_1_1_n_n.contr.Idx) : (dot_S12500x256_S12500x256_S256x256_0_0_1_1_n_n.rhsIdx i q 0).val = (q ⟨0, by decide⟩).val :=
  dot_S12500x256_S12500x256_S256x256_0_0_1_1_n_n.rhsIdx_val_of_single rfl i q
theorem rhsG_1 (i : S256x256.Idx) (q : dot_S12500x256_S12500x256_S256x256_0_0_1_1_n_n.contr.Idx) : (dot_S12500x256_S12500x256_S256x256_0_0_1_1_n_n.rhsIdx i q 1).val = (i 1).val := by
  unfold DotDims.rhsIdx
  rw [dif_neg (show ¬(1 : Fin S12500x256.rank) ∈ dot_S12500x256_S12500x256_S256x256_0_0_1_1_n_n.rhsBatch by decide),
    dif_pos (show (1 : Fin S12500x256.rank) ∈ dot_S12500x256_S12500x256_S256x256_0_0_1_1_n_n.rhsNonContracting by decide)]
  rfl

/-- Entry `(p, q)` of the product that contracts the ROWS of two `[12500, 256]` arrays, onto zero: `∑ᵣ aᵣp·bᵣq`. -/
theorem gram_apply {φ₁ φ₂ : FTy} (a : FVec Ideal S12500x256 φ₁) (b : FVec Ideal S12500x256 φ₂) (p q : Fin 256) :
    matmul dot_S12500x256_S12500x256_S256x256_0_0_1_1_n_n none a b (constant (F := Ideal) S256x256 .f32 0x00000000#32) (ix2 p q)
      = ∑ r : Fin 12500, a (ix2 r p) * b (ix2 r q) := by
  refine (Ideal.matmul_constant_zero_apply dot_S12500x256_S12500x256_S256x256_0_0_1_1_n_n none a b (ix2 p q)).trans ?_
  rw [← Equiv.sum_comp (ValueIdx.contrEquiv1 dot_S12500x256_S12500x256_S256x256_0_0_1_1_n_n 12500 rfl rfl).symm]
  refine Finset.sum_congr rfl fun k _ => ?_
  have hk := ValueIdx.contrEquiv1_symm_val dot_S12500x256_S12500x256_S256x256_0_0_1_1_n_n 12500 rfl rfl k
  have el : dot_S12500x256_S12500x256_S256x256_0_0_1_1_n_n.lhsIdx (ix2 p q) ((ValueIdx.contrEquiv1 dot_S12500x256_S12500x256_S256x256_0_0_1_1_n_n 12500 rfl rfl).symm k) = ix2 k p :=
    funext fun ax => Fin.ext (by
      match ax with
      | ⟨0, _⟩ => exact (lhsG_0 _ _).trans hk
      | ⟨1, _⟩ => exact lhsG_1 _ _)
  have er : dot_S12500x256_S12500x256_S256x256_0_0_1_1_n_n.rhsIdx (ix2 p q) ((ValueIdx.contrEquiv1 dot_S12500x256_S12500x256_S256x256_0_0_1_1_n_n 12500 rfl rfl).symm k) = ix2 k q :=
    funext fun ax => Fin.ext (by
      match ax with
      | ⟨0, _⟩ => exact (rhsG_0 _ _).trans hk
      | ⟨1, _⟩ => exact rhsG_1 _ _)
  rw [el, er]

/-! ## The stages of the body, each a function of the loaded block -/

variable (v0 : Vec Ideal S1x12500x256 .f32)

/-- The block's rows. -/
def rows : FVec Ideal S12500x256 .f32 := shapeCast S12500x256 v0 shapeCasts_S1x12500x256_S12500x256

theorem rows_apply (r : Fin 12500) (c : Fin 256) : rows v0 (ix2 r c) = v0 (ix3 (0 : Fin 1) r c) :=
  shapeCast_1ab_ab_apply v0 shapeCasts_S1x12500x256_S12500x256 r c

/-- The rows' Gram matrix. -/
def gram : FVec Ideal S256x256 .f32 :=
  matmul dot_S12500x256_S12500x256_S256x256_0_0_1_1_n_n none (truncf .bf16 (rows v0) bitsLt_bf16_f32) (truncf .bf16 (rows v0) bitsLt_bf16_f32)
    (constant S256x256 .f32 0x00000000#32)

theorem gram_rows_apply (p q : Fin 256) : gram v0 (ix2 p q) = ∑ r : Fin 12500, v0 (ix3 (0 : Fin 1) r p) * v0 (ix3 (0 : Fin 1) r q) := by
  unfold gram
  rw [gram_apply]
  refine Finset.sum_congr rfl fun r _ => ?_
  rw [truncf_apply, truncf_apply, rows_apply, rows_apply]

/-- The sum of the Gram matrix's four diagonal blocks, from zero. -/
def diagSum : FVec Ideal S64x64 .f32 :=
  addf (addf (addf (addf (broadcast S64x64 (Scalar.ofBits .f32 0x00000000#32))
      (extractStridedSlice S64x64 ![0, 0] (gram v0) slices_S256x256_o0_0_S64x64))
      (extractStridedSlice S64x64 ![64, 64] (gram v0) slices_S256x256_o64_64_S64x64))
      (extractStridedSlice S64x64 ![128, 128] (gram v0) slices_S256x256_o128_128_S64x64))
      (extractStridedSlice S64x64 ![192, 192] (gram v0) slices_S256x256_o192_192_S64x64)

theorem diagSum_apply (d e : Fin 64) : diagSum v0 (ix2 d e) = gram4 (fun r c => v0 (ix3 (0 : Fin 1) r c)) d e := by
  unfold diagSum gram4
  rw [addf_apply, addf_apply, addf_apply, addf_apply, broadcast_apply,
    slice2_apply 0 0 (gram v0) slices_S256x256_o0_0_S64x64 d e (blk 0 d) (blk 0 e) (blk0_val d) (blk0_val e),
    slice2_apply 64 64 (gram v0) slices_S256x256_o64_64_S64x64 d e (blk 1 d) (blk 1 e) (blk1_val d) (blk1_val e),
    slice2_apply 128 128 (gram v0) slices_S256x256_o128_128_S64x64 d e (blk 2 d) (blk 2 e) (blk2_val d) (blk2_val e),
    slice2_apply 192 192 (gram v0) slices_S256x256_o192_192_S64x64 d e (blk 3 d) (blk 3 e) (blk3_val d) (blk3_val e),
    gram_rows_apply, gram_rows_apply, gram_rows_apply, gram_rows_apply]
  rfl

/-- The column sums of the rows. -/
def colSums : FVec Ideal S256 .f32 :=
  multiReduction .add [0] S256 (rows v0) 0x00000000#32 reduces_S12500x256_S256 (.inl rfl) rfl

theorem colSums_apply (c : Fin 256) : colSums v0 (ix1 c) = ∑ r : Fin 12500, v0 (ix3 (0 : Fin 1) r c) := by
  unfold colSums
  refine (multiReduction_add_col (rows v0) _ _ _ _ c).trans ?_
  exact Finset.sum_congr rfl fun r _ => rows_apply v0 r c

/-- The sum of the column sums' four segments, from zero. -/
def segSum : FVec Ideal S64 .f32 :=
  addf (addf (addf (addf (broadcast S64 (Scalar.ofBits .f32 0x00000000#32))
      (extractStridedSlice S64 ![0] (colSums v0) slices_S256_o0_S64))
      (extractStridedSlice S64 ![64] (colSums v0) slices_S256_o64_S64))
      (extractStridedSlice S64 ![128] (colSums v0) slices_S256_o128_S64))
      (extractStridedSlice S64 ![192] (colSums v0) slices_S256_o192_S64)

theorem segSum_apply (d : Fin 64) : segSum v0 (ix1 d) = colSum4 (fun r c => v0 (ix3 (0 : Fin 1) r c)) d := by
  unfold segSum colSum4
  rw [addf_apply, addf_apply, addf_apply, addf_apply, broadcast_apply,
    slice1_apply 0 (colSums v0) slices_S256_o0_S64 d (blk 0 d) (blk0_val d),
    slice1_apply 64 (colSums v0) slices_S256_o64_S64 d (blk 1 d) (blk1_val d),
    slice1_apply 128 (colSums v0) slices_S256_o128_S64 d (blk 2 d) (blk2_val d),
    slice1_apply 192 (colSums v0) slices_S256_o192_S64 d (blk 3 d) (blk3_val d),
    colSums_apply, colSums_apply, colSums_apply, colSums_apply]
  rfl

/-- The covariance: the diagonal sum less the outer product over the count, over one less. -/
def covMat : FVec Ideal S64x64 .f32 :=
  divf (subf (diagSum v0)
      (divf (mulf (broadcastTo S64x64 (shapeCast S64x1 (segSum v0) shapeCasts_S64_S64x1) broadcasts_S64x1_S64x64)
                  (broadcastTo S64x64 (shapeCast S1x64 (segSum v0) shapeCasts_S64_S1x64) broadcasts_S1x64_S64x64))
            (broadcast S64x64 (Scalar.ofBits .f32 0x47435000#32))))
    (broadcast S64x64 (Scalar.ofBits .f32 0x47434F00#32))

theorem covMat_apply (d e : Fin 64) : covMat v0 (ix2 d e) = foldedCov (fun r c => v0 (ix3 (0 : Fin 1) r c)) d e := by
  unfold covMat foldedCov
  rw [divf_apply, subf_apply, divf_apply, mulf_apply, broadcast_apply, broadcast_apply,
    broadcastTo_a1_ab_apply, broadcastTo_1b_ab_apply, shapeCast_a_a1_apply, shapeCast_a_1a_apply,
    diagSum_apply, segSum_apply, segSum_apply]
  rfl

/-- The body's store is the covariance laid out as a row, with two unit axes in front. -/
theorem pay_eq : k0_pay1 v0 = shapeCast S1x1x4096 (shapeCast S1x4096 (covMat v0) shapeCasts_S64x64_S1x4096) shapeCasts_S1x4096_S1x1x4096 := rfl

/-- Position `k` of the stored row is the covariance entry `(k / 64, k % 64)`. -/
theorem pay_apply (u u' : Fin 1) (k : Fin 4096) :
    k0_pay1 v0 (ix3 u u' k)
      = foldedCov (fun r c => v0 (ix3 (0 : Fin 1) r c)) ⟨k.val / 64, by have := k.isLt; omega⟩ ⟨k.val % 64, Nat.mod_lt _ (by decide)⟩ := by
  rw [pay_eq, shapeCast_ab_1ab_apply,
    shapeCast_ab_1n_apply (covMat v0) shapeCasts_S64x64_S1x4096 u' k ⟨k.val / 64, by have := k.isLt; omega⟩ ⟨k.val % 64, Nat.mod_lt _ (by decide)⟩
      (by show k.val = k.val / 64 * 64 + k.val % 64; omega),
    covMat_apply]

end Cert.CovFc.CovBody

end
-- ==== Proof.Region0.lean ====
/-
  The covariance region's output array after its 32 points.

  Point `t` of the grid is handed sample `t` of the folded array, the block `[1, 12500, 256]` at block index `(t, 0, 0)`,
  and writes back the block `[1, 1, 4096]` at block index `(t, 0, 0)` of the output. What it writes is, position by
  position, the folded covariance of ITS sample (`Cert.CovFc.CovBody.pay_apply`), which is block `t` of one function of the
  whole folded array: row `(s, 0, ·)` holds the flattened folded covariance of sample `s`. The 32 blocks are the 32 rows, so
  they cover the array, and the array ends holding that function.
-/
import proofs.«160932_j68101001445527_2_alg».proof.Proof.Gen.KernelIdeal.Frame
import proofs.«160932_j68101001445527_2_alg».proof.Proof.CovBody
import Idealize.ShloMosaic.Lib.Pipeline.Value

noncomputable section

namespace Cert.CovFc.Region0

open Cert.KernelIdeal Cert.KernelIdeal.Gen Idealize.ShloMosaic Idealize.ShloMosaic.TcCoe Idealize.SL.Sem
open Idealize.ShloMosaic.ValueIdx Cert.CovFc
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl

/-- Both windows sit at block index `(t, 0, 0)` at point `t`: decided over the 32 points. -/
theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- A point of the grid as a sample number. -/
def sample (t : Fin cfg0.N) : Fin 32 := ⟨t.val, by have h : t.val < grid0.N := t.isLt; rw [N_0] at h; exact h⟩

/-- What the output array ends holding, as a function of the folded array `X`: at `(s, ·, k)` entry `(k / 64, k % 64)` of
    sample `s`'s folded covariance. -/
def G0 (X : S32x12500x256.Idx → EReal) : S32x1x4096.Idx → EReal := fun i =>
  foldedCov (fun r k => X (ix3 (⟨(i 0).val, (i 0).isLt⟩ : Fin 32) r k))
    ⟨(i 2).val / 64, by have h : (i 2).val < 4096 := (i 2).isLt; omega⟩ ⟨(i 2).val % 64, Nat.mod_lt _ (by decide)⟩

theorem G0_at (X : S32x12500x256.Idx → EReal) (i : S32x1x4096.Idx) (s : Fin 32) (k : Fin 4096)
    (h0 : (i 0).val = s.val) (h2 : (i 2).val = k.val) :
    G0 X i = foldedCov (fun r c => X (ix3 s r c)) ⟨k.val / 64, by have := k.isLt; omega⟩ ⟨k.val % 64, Nat.mod_lt _ (by decide)⟩ := by
  unfold G0
  have e0 : (⟨(i 0).val, (i 0).isLt⟩ : Fin 32) = s := Fin.ext h0
  rw [e0]
  congr 1 <;> exact Fin.ext (by show _ = _; simp only [h2])

/-- The input block of point `t` is sample `t` of the folded array. -/
theorem iblk0_apply (c : Dev nD) (t : Fin cfg0.N) (r : Fin 12500) (k : Fin 256) :
    (iblk0 V c 0 t : Vec Ideal S1x12500x256 .f32) (ix3 (0 : Fin 1) r k)
      = (V c main_v0 : S32x12500x256.Idx → EReal) (ix3 (sample t) r k) := by
  obtain ⟨e0, e1, e2, -, -, -⟩ := idx_facts t
  unfold iblk0
  rw [View.read_apply]
  show V c main_v0 _ = V c main_v0 _
  congr 1
  funext a
  apply Fin.ext
  match a with
  | ⟨0, _⟩ => show win0_0.index t (0 : Fin 3) * 1 + 1 * 0 = t.val; omega
  | ⟨1, _⟩ => show win0_0.index t (1 : Fin 3) * 12500 + 1 * r.val = r.val; omega
  | ⟨2, _⟩ => show win0_0.index t (2 : Fin 3) * 256 + 1 * k.val = k.val; omega

/-- What point `t` writes back is block `t` of `G0` of the folded array as the region finds it. -/
theorem flushed_eq (c : Dev nD) (t : Fin cfg0.N) :
    (dat0 V c).flushed 1 t = ((cfg0.win 1).blk t).view.read (Elt Ideal) (G0 (V c main_v0)) := by
  show (cfg0.win 1).cut (grid0.coords t) ((dat0 V c).after 1 t) = _
  rw [after0_1]
  unfold out0_1
  rw [View.canon_unit_zero hz3]
  simp only [View.ld_unit_zero (S := S1x12500x256) hz3]
  obtain ⟨-, -, -, f0, f1, f2⟩ := idx_facts t
  refine funext fun (j : S1x1x4096.Idx) => ?_
  obtain ⟨u, u', k, rfl⟩ : ∃ (u u' : Fin 1) (k : Fin 4096), j = ix3 u u' k := ⟨j 0, j 1, j 2, eq_ix3 j⟩
  show k0_pay1 (iblk0 V c 0 t) (ix3 u u' k) = G0 (V c main_v0) (((cfg0.win 1).blk t).view.emb (ix3 u u' k))
  refine (CovBody.pay_apply (iblk0 V c 0 t) u u' k).trans ?_
  have hu : u.val = 0 := by omega
  have hu' : u'.val = 0 := by omega
  rw [G0_at (V c main_v0) _ (sample t) k
    (by show win0_1.index t (0 : Fin 3) * 1 + 1 * u.val = t.val; omega)
    (by show win0_1.index t (2 : Fin 3) * 4096 + 1 * k.val = k.val; omega)]
  refine congrArg (fun f => foldedCov f _ _) (funext fun r => funext fun c' => ?_)
  exact iblk0_apply V c t r c'

/-- An index of the output array is in point `t`'s block iff each coordinate is in the block's range on its axis. -/
theorem mem_blk (t : Fin cfg0.N) (i : S32x1x4096.Idx) :
    i ∈ ((cfg0.win 1).blk t).view.set ↔ ∀ a : Fin 3, win0_1.index t a * S1x1x4096.size a ≤ (i a).val ∧ (i a).val < win0_1.index t a * S1x1x4096.size a + S1x1x4096.size a := by
  show i ∈ ((View.whole main_v1).slice (win0_1.rect t)).set ↔ _
  rw [View.set_slice_whole, Rect.mem_set_unit]
  exact Iff.rfl

/-- Row `s` of the output is point `s`'s block: the blocks cover the array. -/
theorem cover (i : S32x1x4096.Idx) : ∃ t : Fin cfg0.N, (cfg0.win 1).flush t = true ∧ i ∈ ((cfg0.win 1).blk t).view.set := by
  have h0 : (i 0).val < 32 := (i 0).isLt
  have h1 : (i 1).val < 1 := (i 1).isLt
  have h2 : (i 2).val < 4096 := (i 2).isLt
  let t : Fin cfg0.N := ⟨(i 0).val, by show (i 0).val < grid0.N; rw [N_0]; exact h0⟩
  obtain ⟨-, -, -, f0, f1, f2⟩ := idx_facts t
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; rw [f0]; show (i 0).val * 1 ≤ (i 0).val ∧ (i 0).val < (i 0).val * 1 + 1; omega
  | ⟨1, _⟩ => show win0_1.index t (1 : Fin 3) * 1 ≤ (i 1).val ∧ (i 1).val < win0_1.index t (1 : Fin 3) * 1 + 1; omega
  | ⟨2, _⟩ => show win0_1.index t (2 : Fin 3) * 4096 ≤ (i 2).val ∧ (i 2).val < win0_1.index t (2 : Fin 3) * 4096 + 4096; omega

/-- The output array after the region: `G0` of the folded array as the region finds it. -/
theorem final0 (c : Dev nD) : (dat0 V c).arrAt 1 cfg0.N = G0 (V c main_v0) :=
  (dat0 V c).arrAt_eq_of_cover 1 (G0 (V c main_v0)) (fun t _ => flushed_eq V c t) cover

end Cert.CovFc.Region0

end
-- ==== Proof.FcBody.lean ====
/-
  What the linear-layer kernel stores, read at an index.

  The kernel is handed the flattened covariances `[32, 4096]`, the weights `[256, 4096]` and the bias as a row
  `[1, 256]`, and stores `[32, 256]`. Reading the printed operations from the loads down: the product that contracts
  the 4096 axis of both operands, onto zero, plus the bias row repeated for every sample — the logits
  `∑ₖ flat(s,k)·W(o,k) + b(o)`; the sum of each row's squares, kept as a column, its square root, clamped below; and the
  logits over that column repeated along the row. So entry `(s, o)` of the store is `Cert.CovFc.fcNorm` of the loaded
  arrays.
-/
import proofs.«160932_j68101001445527_2_alg».proof.Proof.Gen.KernelIdeal.Skeleton
import proofs.«160932_j68101001445527_2_alg».proof.Proof.Spec
import proofs.«160932_j68101001445527_2_alg».proof.Proof.LibKeepdims
import proofs.«160932_j68101001445527_2_alg».proof.Proof.LibRowForms
import Idealize.ShloMosaic.Lib.ValueIdx
import Idealize.ShloMosaic.Lib.ValueLayout
import Idealize.ShloMosaic.Lib.Pipeline.Value
import Idealize.ShloMosaic.PureOps.Ideal.Laws

noncomputable section

namespace Cert.CovFc.FcBody

open Cert.KernelIdeal Cert.KernelIdeal.Gen Idealize.ShloMosaic Idealize.ShloMosaic.ValueIdx Cert.CovFc

/-! ## The product that contracts the last axis of both operands -/

theorem lhsL_0 (i : S32x256.Idx) (q : dot_S32x4096_S256x4096_S32x256_1_1_0_0_n_n.contr.Idx) : (dot_S32x4096_S256x4096_S32x256_1_1_0_0_n_n.lhsIdx i q 0).val = (i 0).val := by
  unfold DotDims.lhsIdx
  rw [dif_neg (show ¬(0 : Fin S32x4096.rank) ∈ dot_S32x4096_S256x4096_S32x256_1_1_0_0_n_n.lhsBatch by decide),
    dif_pos (show (0 : Fin S32x4096.rank) ∈ dot_S32x4096_S256x4096_S32x256_1_1_0_0_n_n.lhsNonContracting by decide)]
  rfl
theorem lhsL_1 (i : S32x256.Idx) (q : dot_S32x4096_S256x4096_S32x256_1_1_0_0_n_n.contr.Idx) : (dot_S32x4096_S256x4096_S32x256_1_1_0_0_n_n.lhsIdx i q 1).val = (q ⟨0, by decide⟩).val :=
  dot_S32x4096_S256x4096_S32x256_1_1_0_0_n_n.lhsIdx_val_of_single rfl i q
theorem rhsL_0 (i : S32x256.Idx) (q : dot_S32x4096_S256x4096_S32x256_1_1_0_0_n_n.contr.Idx) : (dot_S32x4096_S256x4096_S32x256_1_1_0_0_n_n.rhsIdx i q 0).val = (i 1).val := by
  unfold DotDims.rhsIdx
  rw [dif_neg (show ¬(0 : Fin S256x4096.rank) ∈ dot_S32x4096_S256x4096_S32x256_1_1_0_0_n_n.rhsBatch by decide),
    dif_pos (show (0 : Fin S256x4096.rank) ∈ dot_S32x4096_S256x4096_S32x256_1_1_0_0_n_n.rhsNonContracting by decide)]
  rfl
theorem rhsL_1 (i : S32x256.Idx) (q : dot_S32x4096_S256x4096_S32x256_1_1_0_0_n_n.contr.Idx) : (dot_S32x4096_S256x4096_S32x256_1_1_0_0_n_n.rhsIdx i q 1).val = (q ⟨0, by decide⟩).val :=
  dot_S32x4096_S256x4096_S32x256_1_1_0_0_n_n.rhsIdx_val_of_single rfl i q

/-- Entry `(s, o)` of that product, onto zero: `∑ₖ a(s,k)·b(o,k)`, whatever the precision key. -/
theorem linear_apply {φ₁ φ₂ : FTy} (prec : Option ContractPrecision) (a : FVec Ideal S32x4096 φ₁) (b : FVec Ideal S256x4096 φ₂) (s : Fin 32) (o : Fin 256) :
    matmul dot_S32x4096_S256x4096_S32x256_1_1_0_0_n_n prec a b (constant (F := Ideal) S32x256 .f32 0x00000000#32) (ix2 s o)
      = ∑ k : Fin 4096, a (ix2 s k) * b (ix2 o k) := by
  refine (Ideal.matmul_constant_zero_apply dot_S32x4096_S256x4096_S32x256_1_1_0_0_n_n prec a b (ix2 s o)).trans ?_
  rw [← Equiv.sum_comp (ValueIdx.contrEquiv1 dot_S32x4096_S256x4096_S32x256_1_1_0_0_n_n 4096 rfl rfl).symm]
  refine Finset.sum_congr rfl fun k _ => ?_
  have hk := ValueIdx.contrEquiv1_symm_val dot_S32x4096_S256x4096_S32x256_1_1_0_0_n_n 4096 rfl rfl k
  have el : dot_S32x4096_S256x4096_S32x256_1_1_0_0_n_n.lhsIdx (ix2 s o) ((ValueIdx.contrEquiv1 dot_S32x4096_S256x4096_S32x256_1_1_0_0_n_n 4096 rfl rfl).symm k) = ix2 s k :=
    funext fun ax => Fin.ext (by
      match ax with
      | ⟨0, _⟩ => exact lhsL_0 _ _
      | ⟨1, _⟩ => exact (lhsL_1 _ _).trans hk)
  have er : dot_S32x4096_S256x4096_S32x256_1_1_0_0_n_n.rhsIdx (ix2 s o) ((ValueIdx.contrEquiv1 dot_S32x4096_S256x4096_S32x256_1_1_0_0_n_n 4096 rfl rfl).symm k) = ix2 o k :=
    funext fun ax => Fin.ext (by
      match ax with
      | ⟨0, _⟩ => exact rhsL_0 _ _
      | ⟨1, _⟩ => exact (rhsL_1 _ _).trans hk)
  rw [el, er]

/-! ## The stages of the body, each a function of the loaded arrays -/

variable (v0 : FVec Ideal S32x4096 .f32) (v2 : FVec Ideal S256x4096 .f32) (v3 : FVec Ideal S1x256 .f32)

/-- The linear layer's output. -/
def logits : FVec Ideal S32x256 .f32 :=
  addf (matmul dot_S32x4096_S256x4096_S32x256_1_1_0_0_n_n (some .fp32) (shapeCast S32x4096 v0 shapeCasts_S32x4096_S32x4096) v2
          (constant S32x256 .f32 0x00000000#32))
       (broadcastTo S32x256 (shapeCast S1x256 v3 shapeCasts_S1x256_S1x256) broadcasts_S1x256_S32x256)

theorem logits_apply (s : Fin 32) (o : Fin 256) :
    logits v0 v2 v3 (ix2 s o) = logit (fun s k => v0 (ix2 s k)) (fun o k => v2 (ix2 o k)) (fun o => v3 (ix2 (0 : Fin 1) o)) s o := by
  unfold logits logit
  rw [addf_apply, linear_apply, broadcastTo_1b_ab_apply, shapeCast_self, shapeCast_self]

/-- The rows' Euclidean norms as a column, clamped below. -/
def rowNorm : FVec Ideal S32x1 .f32 :=
  maximumf (sqrt (shapeCast S32x1
      (multiReduction .add [1] S32 (mulf (logits v0 v2 v3) (logits v0 v2 v3)) 0x00000000#32 reduces_S32x256_S32 (.inl rfl) rfl)
      shapeCasts_S32_S32x1))
    (broadcast S32x1 (Scalar.ofBits .f32 0x2B8CBCCC#32))

theorem rowNorm_apply (s : Fin 32) (u : Fin 1) :
    rowNorm v0 v2 v3 (ix2 s u)
      = max (Ideal.sqrt (∑ o' : Fin 256, logit (fun s k => v0 (ix2 s k)) (fun o k => v2 (ix2 o k)) (fun o => v3 (ix2 (0 : Fin 1) o)) s o'
                * logit (fun s k => v0 (ix2 s k)) (fun o k => v2 (ix2 o k)) (fun o => v3 (ix2 (0 : Fin 1) o)) s o')) epsW := by
  unfold rowNorm
  rw [maximumf_apply, broadcast_apply]
  show max (Ideal.sqrt (shapeCast S32x1 _ shapeCasts_S32_S32x1 (ix2 s u))) _ = _
  rw [shapeCast_a_a1_apply]
  refine congrArg (fun t => max (Ideal.sqrt t) epsW)
    ((multiReduction_add_row (mulf (logits v0 v2 v3) (logits v0 v2 v3)) _ _ _ _ s).trans (Finset.sum_congr rfl fun o' _ => ?_))
  rw [mulf_apply, logits_apply]

/-- The body's store: the logits over the clamped norms repeated along each row. -/
theorem pay_eq : k1_pay1 (F := Ideal) v0 v2 v3 = divf (logits v0 v2 v3) (broadcastTo S32x256 (rowNorm v0 v2 v3) broadcasts_S32x1_S32x256) := rfl

theorem pay_apply (s : Fin 32) (o : Fin 256) :
    k1_pay1 (F := Ideal) v0 v2 v3 (ix2 s o)
      = fcNorm (fun s k => v0 (ix2 s k)) (fun o k => v2 (ix2 o k)) (fun o => v3 (ix2 (0 : Fin 1) o)) s o := by
  rw [pay_eq, divf_apply, broadcastTo_a1_ab_apply, rowNorm_apply, logits_apply]
  rfl

end Cert.CovFc.FcBody

end
-- ==== Proof.Region1.lean ====
/-
  The second region, read as mathematics.

  The region has a single grid point, and each of its four windows is a whole array: the flattened covariances
  `[32, 4096]`, the weights `[256, 4096]`, the bias as a row `[1, 256]`, and the result `[32, 256]`. So the one block
  of every window sits at the origin and is the array itself. At that point the body stores, at entry `(s, o)`, the
  linear layer's output for sample `s` and unit `o` divided by the clamped Euclidean norm of the sample's row
  (`Cert.CovFc.fcNorm` of the three arrays it loaded); what the point writes back is that store; and the one block of
  the result covers every index. Hence the result array ends holding `fcNorm` of the three arrays as the region found
  them.
-/
import proofs.«160932_j68101001445527_2_alg».proof.Proof.FcBody
import proofs.«160932_j68101001445527_2_alg».proof.Proof.Gen.KernelIdeal.Frame
import Idealize.ShloMosaic.Lib.Pipeline.Value

noncomputable section

namespace Cert.CovFc.Region1

open Cert.KernelIdeal Cert.KernelIdeal.Gen Idealize.ShloMosaic Idealize.ShloMosaic.TcCoe Idealize.SL.Sem
open Idealize.ShloMosaic.ValueIdx Cert.CovFc
open Idealize.ShloMosaic.Pipeline (Dat)

variable (V : (c : Dev nD) → (b : Ref sig .tc) → Buf (Elt Ideal) ((c : Thread nD τ).loc b))

/-- The origin of a rank-2 array: offset zero on both axes. -/
theorem origin_zero : (![0, 0] : Fin 2 → Nat) = fun _ => 0 := funext fun a => by fin_cases a <;> rfl

/-- The normalised linear layer of the arrays the region is entered with: entry `(s, o)` is the layer's output for
    sample `s`, unit `o`, over the clamped Euclidean norm of sample `s`'s row. -/
def fcOf (c : Dev nD) : S32x256.Idx → EReal := fun i =>
  fcNorm (fun s k => (V c main_v2 : S32x4096.Idx → EReal) (ix2 s k))
    (fun o k => (V c main_arg1 : S256x4096.Idx → EReal) (ix2 o k))
    (fun o => (V c main_v3 : S1x256.Idx → EReal) (ix2 (0 : Fin 1) o))
    ⟨(i 0).val, (i 0).isLt⟩ ⟨(i 1).val, (i 1).isLt⟩

/-- Every window's block sits at the origin, at every grid point (there is one). -/
theorem blocks_at_origin : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- What the body stores at an index `j`, from the three arrays it loaded: the normalised linear layer at `j`'s
    coordinates. -/
theorem stored_at (v0 : FVec Ideal S32x4096 .f32) (v2 : FVec Ideal S256x4096 .f32) (v3 : FVec Ideal S1x256 .f32)
    (j : S32x256.Idx) :
    k1_pay1 (F := Ideal) v0 v2 v3 j
      = fcNorm (fun s k => v0 (ix2 s k)) (fun o k => v2 (ix2 o k)) (fun o => v3 (ix2 (0 : Fin 1) o))
          ⟨(j 0).val, (j 0).isLt⟩ ⟨(j 1).val, (j 1).isLt⟩ := by
  obtain ⟨s, o, rfl⟩ : ∃ (s : Fin 32) (o : Fin 256), j = ix2 s o := ⟨j 0, j 1, eq_ix2 j⟩
  exact FcBody.pay_apply v0 v2 v3 s o

/-- What a grid point writes back to the result is the result's block of `fcOf`: each input block, sitting at the
    origin and as large as its array, reads the array entry for entry, and so does the result's block. -/
theorem writeback_eq (c : Dev nD) (t : Fin cfg1.N) :
    (dat1 (F := Ideal) V c).flushed 3 t = ((cfg1.win 3).blk t).view.read (Elt Ideal) (fcOf V c) := by
  show (cfg1.win 3).cut (grid1.coords t) ((dat1 (F := Ideal) V c).after 3 t) = _
  rw [after1_3]
  unfold out1_3
  rw [View.canon_unit_zero origin_zero]
  simp only [View.ld_unit_zero (S := S32x4096) origin_zero, View.ld_unit_zero (S := S256x4096) origin_zero,
    View.ld_unit_zero (S := S1x256) origin_zero]
  obtain ⟨a0, a1, b0, b1, c0, c1, d0, d1⟩ := blocks_at_origin t
  funext j
  refine (stored_at (iblk1 V c 0 t) (iblk1 V c 1 t) (iblk1 V c 2 t) j).trans ?_
  have e3 : ((cfg1.win 3).blk t).view.emb j = j := by
    funext a; apply Fin.ext
    match a with
    | ⟨0, _⟩ => show win1_3.index t (0 : Fin 2) * 32 + 1 * (j 0).val = (j 0).val; omega
    | ⟨1, _⟩ => show win1_3.index t (1 : Fin 2) * 256 + 1 * (j 1).val = (j 1).val; omega
  have h0 : ∀ y : S32x4096.Idx, iblk1 V c 0 t y = (V c main_v2 : S32x4096.Idx → EReal) y := fun y => by
    show (V c main_v2 : S32x4096.Idx → EReal) (((cfg1.win 0).blk t).view.emb y) = _
    refine congrArg _ (funext fun a => Fin.ext ?_)
    match a with
    | ⟨0, _⟩ => show win1_0.index t (0 : Fin 2) * 32 + 1 * (y 0).val = (y 0).val; omega
    | ⟨1, _⟩ => show win1_0.index t (1 : Fin 2) * 4096 + 1 * (y 1).val = (y 1).val; omega
  have h1 : ∀ y : S256x4096.Idx, iblk1 V c 1 t y = (V c main_arg1 : S256x4096.Idx → EReal) y := fun y => by
    show (V c main_arg1 : S256x4096.Idx → EReal) (((cfg1.win 1).blk t).view.emb y) = _
    refine congrArg _ (funext fun a => Fin.ext ?_)
    match a with
    | ⟨0, _⟩ => show win1_1.index t (0 : Fin 2) * 256 + 1 * (y 0).val = (y 0).val; omega
    | ⟨1, _⟩ => show win1_1.index t (1 : Fin 2) * 4096 + 1 * (y 1).val = (y 1).val; omega
  have h2 : ∀ y : S1x256.Idx, iblk1 V c 2 t y = (V c main_v3 : S1x256.Idx → EReal) y := fun y => by
    show (V c main_v3 : S1x256.Idx → EReal) (((cfg1.win 2).blk t).view.emb y) = _
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 256 + 1 * (y 1).val = (y 1).val; omega
  have hv0 : (fun (s : Fin 32) (k : Fin 4096) => iblk1 V c 0 t (ix2 s k))
      = fun s k => (V c main_v2 : S32x4096.Idx → EReal) (ix2 s k) := funext fun s => funext fun k => h0 (ix2 s k)
  have hv1 : (fun (o : Fin 256) (k : Fin 4096) => iblk1 V c 1 t (ix2 o k))
      = fun o k => (V c main_arg1 : S256x4096.Idx → EReal) (ix2 o k) := funext fun o => funext fun k => h1 (ix2 o k)
  have hv2 : (fun (o : Fin 256) => iblk1 V c 2 t (ix2 (0 : Fin 1) o))
      = fun o => (V c main_v3 : S1x256.Idx → EReal) (ix2 (0 : Fin 1) o) := funext fun o => h2 (ix2 (0 : Fin 1) o)
  have hG : fcOf V c (((cfg1.win 3).blk t).view.emb j) = fcOf V c j := congrArg (fcOf V c) e3
  refine Eq.trans ?_ hG.symm
  unfold fcOf
  rw [hv0, hv1, hv2]

/-- An index of the result is in a point's block when each coordinate is in the block's range on its axis. -/
theorem mem_block (t : Fin cfg1.N) (i : S32x256.Idx) :
    i ∈ ((cfg1.win 3).blk t).view.set ↔ ∀ a : Fin 2, win1_3.index t a * S32x256.size a ≤ (i a).val
      ∧ (i a).val < win1_3.index t a * S32x256.size a + S32x256.size a := by
  show i ∈ ((View.whole main_v4).slice (win1_3.rect t)).set ↔ _
  rw [View.set_slice_whole, Rect.mem_set_unit]
  exact Iff.rfl

/-- The one block of the result, at the origin and as large as the array, covers every index. -/
theorem block_covers (i : S32x256.Idx) :
    ∃ t : Fin cfg1.N, (cfg1.win 3).flush t = true ∧ i ∈ ((cfg1.win 3).blk t).view.set := by
  refine ⟨t1_0, flush1_3 t1_0, ?_⟩
  rw [mem_block]
  obtain ⟨-, -, -, -, -, -, d0, d1⟩ := blocks_at_origin t1_0
  intro a
  match a with
  | ⟨0, _⟩ =>
    show win1_3.index t1_0 (0 : Fin 2) * 32 ≤ (i 0).val ∧ (i 0).val < win1_3.index t1_0 (0 : Fin 2) * 32 + 32
    have hi : (i 0).val < 32 := (i 0).isLt
    omega
  | ⟨1, _⟩ =>
    show win1_3.index t1_0 (1 : Fin 2) * 256 ≤ (i 1).val ∧ (i 1).val < win1_3.index t1_0 (1 : Fin 2) * 256 + 256
    have hi : (i 1).val < 256 := (i 1).isLt
    omega

/-- The result array after the region: the normalised linear layer of the flattened covariances, the weights and the
    bias row as the region found them, entry by entry. -/
theorem final1 (c : Dev nD) :
    (dat1 (F := Ideal) V c).arrAt 3 cfg1.N
      = (fun i : S32x256.Idx =>
          Cert.CovFc.fcNorm (fun s k => (V c main_v2 : S32x4096.Idx → EReal) (ix2 s k))
            (fun o k => (V c main_arg1 : S256x4096.Idx → EReal) (ix2 o k))
            (fun o => (V c main_v3 : S1x256.Idx → EReal) (ix2 (0 : Fin 1) o))
            ⟨(i 0).val, (i 0).isLt⟩ ⟨(i 1).val, (i 1).isLt⟩) :=
  (dat1 (F := Ideal) V c).arrAt_eq_of_cover 3 (fcOf V c) (fun t _ => writeback_eq V c t) block_covers

end Cert.CovFc.Region1

end
-- ==== Proof.RunNamed.lean ====
/-
  What the kernel's run leaves in memory.

  From any launch memory with every counter at zero, every weakly fair execution of the kernel program on the cores
  terminates without a fault, and in every final state, on every core: the result array holds the contents the fold
  through the program's segments assigns to it at the last boundary (`W4` at the result's reference: what the second
  region's write-backs leave there), and each of the three argument arrays holds what it held at launch.
-/
import proofs.«160932_j68101001445527_2_alg».proof.Proof.Gen.KernelIdeal.Frame

set_option maxRecDepth 16384

noncomputable section

namespace Cert.CovFc.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run ends with the result array at the last boundary's contents and the argument arrays as launched: the last
    thread state holds every unscoped buffer at `W4`, and the result's reference and the three arguments' are among
    them; each argument's contents walk back through the fold to the launch memory. -/
theorem run_named : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.CovFc.Run

end
-- ==== Proof.KernelRun.lean ====
/-
  The kernel program's result as one function of its three arguments.

  The program reshapes `x : [32, 50000, 64]` to the folded `[32, 12500, 256]` — row-major, so row `r`, column `k` of
  sample `s` is feature `k % 64` of observation `4r + k / 64` (`Cert.CovFc.fold`) —, runs the covariance region on it,
  drops the unit axis of the `[32, 1, 4096]` result, turns the bias into a row, and runs the linear-layer region on the
  flattened covariances, the weights and that row. Reading each region's output array where the next step finds it:
  the result at `(s, o)` is `fcNorm` of the flattened folded covariances of `x`, of `W` and of `b`.
-/
import proofs.«160932_j68101001445527_2_alg».proof.Proof.Gen.KernelIdeal.Frame
import proofs.«160932_j68101001445527_2_alg».proof.Proof.Region0
import proofs.«160932_j68101001445527_2_alg».proof.Proof.Region1
import proofs.«160932_j68101001445527_2_alg».proof.Proof.RunNamed
import Idealize.ShloMosaic.Lib.StableHlo.Run
import Idealize.ShloMosaic.Lib.ValueLayout

noncomputable section

namespace Cert.CovFc.KernelRun

open Cert.KernelIdeal Cert.KernelIdeal.Gen Idealize.ShloMosaic Idealize.ShloMosaic.TcCoe Idealize.SL.Sem
open Idealize.ShloMosaic.ValueIdx Idealize.ShloMosaic.StableHlo Cert.CovFc
open Idealize.ShloMosaic.Pipeline (Dat)

variable (m : (ℓ : Loc nD τ sig) → Buf (Elt Ideal) ℓ) (ρ : Dev nD → PrngReg)

/-! ## The arguments, as each region finds them -/

/-- The first stretch writes only the folded array: any other buffer is as launched. -/
theorem W1_other (c : Dev nD) (b : Ref sig .tc) (hb : b ≠ main_v0) :
    W1 m ρ c (Proc.devRef .tc b) = m ((c : Thread nD τ).loc b) := by
  show StableHlo.after hostOps0 (W0 m ρ c) (Proc.devRef .tc b) = _
  simp only [after_cons, after_nil]
  rw [reshape_result_ne _ _ _ _ _ _ _ hb]

/-- Nor does region 0 write anything but its own arrays. -/
theorem W2_other (c : Dev nD) (b : Ref sig .tc) (hb : b ≠ main_v0) (hb' : ∀ w, Pipeline.arrRef spec0 w ≠ b) :
    W2 m ρ c (Proc.devRef .tc b) = m ((c : Thread nD τ).loc b) :=
  (W2_of_ne m ρ c b hb').trans (W1_other m ρ c b hb)

/-- Region 0 finds the folded array: the argument reshaped. -/
theorem V1_v0 (c : Dev nD) :
    (V1 m ρ c main_v0 : S32x12500x256.Idx → EReal)
      = shapeCast S32x12500x256 (m ((c : Thread nD τ).loc main_arg0) : S32x50000x64.Idx → EReal) shapeCasts_S32x50000x64_S32x12500x256 := by
  show StableHlo.after hostOps0 (W0 m ρ c) (Proc.devRef .tc main_v0) = _
  after_results
  rfl

/-- Sample `s` of the folded array is the fold of sample `s` of the argument. -/
theorem folded_sample (c : Dev nD) (s : Fin 32) :
    (fun r k => (V1 m ρ c main_v0 : S32x12500x256.Idx → EReal) (ix3 s r k))
      = fold (fun n f => (m ((c : Thread nD τ).loc main_arg0) : S32x50000x64.Idx → EReal) (ix3 s n f)) := by
  funext r k
  rw [V1_v0]
  unfold fold
  refine shapeCast_apply (s := S32x50000x64) (t := S32x12500x256) _ _ _ _ ?_
  have hr := r.isLt; have hk := k.isLt; have hs := s.isLt
  rw [Shape.rowMajor_val_three, Shape.rowMajor_val_three]
  show (s.val * 50000 + (4 * r.val + k.val / 64)) * 64 + k.val % 64 = (s.val * 12500 + r.val) * 256 + k.val
  omega

/-- After region 0 its output array holds the flattened folded covariances, sample by sample. -/
theorem W2_v1 (c : Dev nD) :
    (W2 m ρ c (Proc.devRef .tc main_v1) : S32x1x4096.Idx → EReal) = Region0.G0 (V1 m ρ c main_v0) :=
  (W2_arr m ρ c 1).trans (Region0.final0 (V1 m ρ) c)

/-- Region 1 finds that array with its unit axis dropped, -/
theorem V3_v2 (c : Dev nD) :
    (V3 m ρ c main_v2 : S32x4096.Idx → EReal)
      = shapeCast S32x4096 (W2 m ρ c (Proc.devRef .tc main_v1) : S32x1x4096.Idx → EReal) shapeCasts_S32x1x4096_S32x4096 := by
  show StableHlo.after hostOps1 (W2 m ρ c) (Proc.devRef .tc main_v2) = _
  after_results
  rfl

/-- the bias as a row, -/
theorem V3_v3 (c : Dev nD) :
    (V3 m ρ c main_v3 : S1x256.Idx → EReal)
      = shapeCast S1x256 (m ((c : Thread nD τ).loc main_arg2) : S256.Idx → EReal) shapeCasts_S256_S1x256 := by
  show StableHlo.after hostOps1 (W2 m ρ c) (Proc.devRef .tc main_v3) = _
  after_results
  rw [W2_other m ρ c main_arg2 (by decide) (by decide)]
  rfl

/-- and the weights as launched. -/
theorem V3_arg1 (c : Dev nD) :
    (V3 m ρ c main_arg1 : S256x4096.Idx → EReal) = (m ((c : Thread nD τ).loc main_arg1) : S256x4096.Idx → EReal) := by
  show StableHlo.after hostOps1 (W2 m ρ c) (Proc.devRef .tc main_arg1) = _
  after_results
  exact W2_other m ρ c main_arg1 (by decide) (by decide)

/-! ## The result -/

/-- The program's result as a function of its arguments: the linear layer and the row normalisation of the flattened
    folded covariances. -/
def kernelResult (x : S32x50000x64.Idx → EReal) (W : S256x4096.Idx → EReal) (b : S256.Idx → EReal) : S32x256.Idx → EReal :=
  fun i => fcNorm (flatten (fun s d e => foldedCov (fold (fun n f => x (ix3 s n f))) d e)) (fun o k => W (ix2 o k)) (fun o => b (ix1 o))
    ⟨(i 0).val, (i 0).isLt⟩ ⟨(i 1).val, (i 1).isLt⟩

/-- Entry `(s, k)` of what region 1 finds in its first window. -/
theorem flat_at (c : Dev nD) (s : Fin 32) (k : Fin 4096) :
    (V3 m ρ c main_v2 : S32x4096.Idx → EReal) (ix2 s k)
      = flatten (fun s d e => foldedCov (fold (fun n f => (m ((c : Thread nD τ).loc main_arg0) : S32x50000x64.Idx → EReal) (ix3 s n f))) d e) s k := by
  rw [V3_v2]
  refine (shapeCast_apply (s := S32x1x4096) (t := S32x4096) _ _ _ (ix3 s (0 : Fin 1) k) ?_).trans ?_
  · rw [Shape.rowMajor_val_three, Shape.rowMajor_val_two]
    show (s.val * 1 + 0) * 4096 + k.val = s.val * 4096 + k.val
    omega
  rw [W2_v1, Region0.G0_at _ _ s k rfl rfl, folded_sample]
  rfl

theorem result_eq (c : Dev nD) :
    (W4 m ρ c (Proc.devRef .tc main_v4) : S32x256.Idx → EReal)
      = kernelResult (m ((c : Thread nD τ).loc main_arg0)) (m ((c : Thread nD τ).loc main_arg1)) (m ((c : Thread nD τ).loc main_arg2)) := by
  refine (W4_arr m ρ c 3).trans ((Region1.final1 (V3 m ρ) c).trans ?_)
  have h0 : (fun s k => (V3 m ρ c main_v2 : S32x4096.Idx → EReal) (ix2 s k))
      = flatten (fun s d e => foldedCov (fold (fun n f => (m ((c : Thread nD τ).loc main_arg0) : S32x50000x64.Idx → EReal) (ix3 s n f))) d e) :=
    funext fun s => funext fun k => flat_at m ρ c s k
  have h2 : (fun o => (V3 m ρ c main_v3 : S1x256.Idx → EReal) (ix2 (0 : Fin 1) o))
      = fun o => (m ((c : Thread nD τ).loc main_arg2) : S256.Idx → EReal) (ix1 o) :=
    funext fun o => by rw [V3_v3]; exact shapeCast_a_1a_apply _ _ (0 : Fin 1) o
  rw [h0, h2, V3_arg1]
  rfl

/-- The kernel program runs, ends with that result, and leaves its arguments as launched. -/
theorem run_value : θ_run defs (onTc (τ := τ) (main (F := Ideal))) ⟨m, fun _ => 0, ρ⟩ (fun r => ∀ c : Dev nD,
      r.2.mem ((c.tc : Thread nD τ).loc main_v4)
        = kernelResult (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (Run.run_named m ρ)

end Cert.CovFc.KernelRun

end
-- ==== Proof.RefValue.lean ====
/-
  The reference, read as mathematics.

  Per sample the reference centres the observations (subtracting from each feature its mean over the 50000
  observations, the mean being the column sum from zero divided by the number of observations), forms the products of
  the centred columns summed over the observations, divides by one less than the number of observations, flattens
  the 64 x 64 result row by row, applies the linear layer and divides each row of the outcome by its Euclidean norm
  clamped below. Entry by entry this is `Cert.CovFc.fcNorm` of the flattened `Cert.CovFc.twoPassCov`.
-/
import proofs.«160932_j68101001445527_2_alg».proof.Proof.Spec
import proofs.«160932_j68101001445527_2_alg».proof.Proof.Gen.ReferenceIdeal.Read
import Idealize.ShloMosaic.Lib.ValueIdx
import Idealize.ShloMosaic.PureOps.Ideal
import Idealize.ShloMosaic.PureOps.Ideal.Laws

noncomputable section

namespace Cert.CovFc.Ref

open Cert.ReferenceIdeal Cert.ReferenceIdeal.Read Idealize.ShloMosaic Idealize.ShloMosaic.ValueIdx

/-- The mean of feature `f` of sample `s`, as every observation `n` sees it: the column sum from zero over the number
    of observations. -/
theorem mean_at (x0 : (⟨S32x50000x64, .f32⟩ : BufTy).Contents (Elt Ideal)) (s : Fin 32) (n : Fin 50000) (f : Fin 64) :
    val_main_v4 (F := Ideal) x0 (ix3 s n f) = Ideal.div (zeroW + ∑ n' : Fin 50000, x0 (ix3 s n' f)) nW := by
  rw [val_main_v4_apply, val_main_v3_apply, val_main_v1_apply, val_main_v0_apply, val_main_v2_apply,
    val_main_cst_0_apply, val_main_cst_apply]
  have hidx : ∀ k : Fin 50000, idx_main_v0 (idx_main_v1 (idx_main_v4 (ix3 s n f))) k = ix3 s k f := fun k =>
    funext fun a => Fin.ext (by match a with | ⟨0, _⟩ => rfl | ⟨1, _⟩ => rfl | ⟨2, _⟩ => rfl)
  simp only [hidx, Ideal.hostDivf_def, Ideal.ofBits_def]

/-- A centred entry: the observation less its feature's mean. -/
theorem centred_at (x0 : (⟨S32x50000x64, .f32⟩ : BufTy).Contents (Elt Ideal)) (s : Fin 32) (n : Fin 50000) (f : Fin 64) :
    val_main_v5 (F := Ideal) x0 (ix3 s n f)
      = x0 (ix3 s n f) - Ideal.div (zeroW + ∑ n' : Fin 50000, x0 (ix3 s n' f)) nW := by
  rw [val_main_v5_apply, mean_at, Ideal.subf_def]

/-- The covariance stage at sample `s`, features `d`, `e`: the two-pass covariance of the sample's observations. -/
theorem cov_at (x0 : (⟨S32x50000x64, .f32⟩ : BufTy).Contents (Elt Ideal)) (s : Fin 32) (d e : Fin 64) :
    val_main_v8 (F := Ideal) x0 (ix3 s d e) = twoPassCov (fun n f => x0 (ix3 s n f)) d e := by
  rw [val_main_v8_apply, val_main_v6_apply, val_main_v7_apply, val_main_cst_1_apply]
  have hl : ∀ k : Fin 50000, lidx_main_v6 (ix3 s d e) k = ix3 s k d := fun k =>
    funext fun a => Fin.ext (by match a with | ⟨0, _⟩ => rfl | ⟨1, _⟩ => rfl | ⟨2, _⟩ => rfl)
  have hr : ∀ k : Fin 50000, ridx_main_v6 (ix3 s d e) k = ix3 s k e := fun k =>
    funext fun a => Fin.ext (by match a with | ⟨0, _⟩ => rfl | ⟨1, _⟩ => rfl | ⟨2, _⟩ => rfl)
  simp only [hl, hr, centred_at, Ideal.hostDivf_def, Ideal.ofBits_def]
  rfl

/-- The flattened covariance at sample `s`, position `k`: entry `(k / 64, k % 64)` of the sample's covariance. -/
theorem flat_at (x0 : (⟨S32x50000x64, .f32⟩ : BufTy).Contents (Elt Ideal)) (s : Fin 32) (k : Fin 4096) :
    val_main_v9 (F := Ideal) x0 (ix2 s k)
      = flatten (fun s d e => twoPassCov (fun n f => x0 (ix3 s n f)) d e) s k := by
  have hk := k.isLt
  have hs := s.isLt
  have hidx : idx_main_v9 (ix2 s k)
      = ix3 s (⟨k.val / 64, by omega⟩ : Fin 64) (⟨k.val % 64, Nat.mod_lt _ (by decide)⟩ : Fin 64) :=
    funext fun a => Fin.ext (by
      match a with
      | ⟨0, _⟩ => show (s.val * 4096 + k.val) / 4096 = s.val; omega
      | ⟨1, _⟩ => show (s.val * 4096 + k.val) / 64 % 64 = k.val / 64; omega
      | ⟨2, _⟩ => show (s.val * 4096 + k.val) % 64 = k.val % 64; omega)
  rw [val_main_v9_apply, hidx, cov_at]
  rfl

/-- The linear layer at sample `s`, unit `o`: the flattened covariance against row `o` of the weights, plus the bias. -/
theorem logit_at (x0 : (⟨S32x50000x64, .f32⟩ : BufTy).Contents (Elt Ideal))
    (x1 : (⟨S256x4096, .f32⟩ : BufTy).Contents (Elt Ideal)) (x2 : (⟨S256, .f32⟩ : BufTy).Contents (Elt Ideal))
    (s : Fin 32) (o : Fin 256) :
    val_main_v14 (F := Ideal) x0 x1 x2 (ix2 s o)
      = logit (flatten (fun s d e => twoPassCov (fun n f => x0 (ix3 s n f)) d e))
          (fun o k => x1 (ix2 o k)) (fun o => x2 (ix1 o)) s o := by
  rw [val_main_v14_apply, val_main_v11_apply, val_main_v13_apply, val_main_v12_apply]
  have hl : ∀ k : Fin 4096, lidx_main_v11 (ix2 s o) k = ix2 s k := fun k =>
    funext fun a => Fin.ext (by match a with | ⟨0, _⟩ => rfl | ⟨1, _⟩ => rfl)
  have hr : ∀ k : Fin 4096, idx_main_v10 (ridx_main_v11 (ix2 s o) k) = ix2 o k := fun k =>
    funext fun a => Fin.ext (by match a with | ⟨0, _⟩ => rfl | ⟨1, _⟩ => rfl)
  have hb : idx_main_v12 (idx_main_v13 (ix2 s o)) = ix1 o :=
    funext fun a => Fin.ext (by match a with | ⟨0, _⟩ => rfl)
  simp only [val_main_v10_apply, hl, hr, hb, flat_at, Ideal.addf_def]
  rfl

/-- The clamped Euclidean norm of row `s` of the linear layer's output, as every unit `o` of the row sees it. The
    sum of squares starts from zero, which adds nothing. -/
theorem norm_at (x0 : (⟨S32x50000x64, .f32⟩ : BufTy).Contents (Elt Ideal))
    (x1 : (⟨S256x4096, .f32⟩ : BufTy).Contents (Elt Ideal)) (x2 : (⟨S256, .f32⟩ : BufTy).Contents (Elt Ideal))
    (s : Fin 32) (o : Fin 256) :
    val_main_v18 (F := Ideal) x0 x1 x2 (ix2 s o)
      = max (Ideal.sqrt (∑ o' : Fin 256,
            logit (flatten (fun s d e => twoPassCov (fun n f => x0 (ix3 s n f)) d e))
              (fun o k => x1 (ix2 o k)) (fun o => x2 (ix1 o)) s o'
          * logit (flatten (fun s d e => twoPassCov (fun n f => x0 (ix3 s n f)) d e))
              (fun o k => x1 (ix2 o k)) (fun o => x2 (ix1 o)) s o')) epsW := by
  rw [val_main_v18_apply, val_main_v17_apply, val_main_v15_apply, val_main_call0_v2_apply, val_main_call0_v1_apply,
    val_main_v16_apply, val_main_cst_2_apply, val_main_call0_cst_apply]
  have hidx : ∀ k : Fin 256, idx_main_call0_v1 (idx_main_call0_v2 (idx_main_v18 (ix2 s o))) k = ix2 s k := fun k =>
    funext fun a => Fin.ext (by match a with | ⟨0, _⟩ => rfl | ⟨1, _⟩ => rfl)
  simp only [val_main_call0_v0_apply, hidx, logit_at, Ideal.mulf_def, Ideal.maximumf_def, Ideal.hostUnary_sqrt_def,
    Ideal.ofBits_def]
  rw [show Ideal.ofBits .f32 0x00000000#32 = (0 : EReal) from zeroW_eq, zero_add]

/-- The reference's result at sample `s`, unit `o`. -/
theorem result_at (x0 : (⟨S32x50000x64, .f32⟩ : BufTy).Contents (Elt Ideal))
    (x1 : (⟨S256x4096, .f32⟩ : BufTy).Contents (Elt Ideal)) (x2 : (⟨S256, .f32⟩ : BufTy).Contents (Elt Ideal))
    (s : Fin 32) (o : Fin 256) :
    val_main_v19 (F := Ideal) x0 x1 x2 (ix2 s o)
      = fcNorm (flatten (fun s d e => twoPassCov (fun n f => x0 (ix3 s n f)) d e))
          (fun o k => x1 (ix2 o k)) (fun o => x2 (ix1 o)) s o := by
  rw [val_main_v19_apply, logit_at, norm_at, Ideal.hostDivf_def]
  rfl

/-- The reference computes, entry by entry, the normalised linear layer of the flattened two-pass covariance. -/
theorem val_main_v19_eq_fcNorm (x0 : (⟨S32x50000x64, .f32⟩ : BufTy).Contents (Elt Ideal))
    (x1 : (⟨S256x4096, .f32⟩ : BufTy).Contents (Elt Ideal)) (x2 : (⟨S256, .f32⟩ : BufTy).Contents (Elt Ideal))
    (i : S32x256.Idx) :
    Cert.ReferenceIdeal.Read.val_main_v19 (F := Ideal) x0 x1 x2 i
      = Cert.CovFc.fcNorm (Cert.CovFc.flatten (fun s d e => Cert.CovFc.twoPassCov (fun n f => x0 (ix3 s n f)) d e))
          (fun o k => x1 (ix2 o k)) (fun o => x2 (ix1 o)) (i 0) (i 1) := by
  obtain ⟨s, o, rfl⟩ : ∃ (s : Fin 32) (o : Fin 256), i = ix2 s o := ⟨i 0, i 1, eq_ix2 i⟩
  exact result_at x0 x1 x2 s o

/-- The same, as an equation of arrays. -/
theorem val_main_v19_eq_fcNorm_fun (x0 : (⟨S32x50000x64, .f32⟩ : BufTy).Contents (Elt Ideal))
    (x1 : (⟨S256x4096, .f32⟩ : BufTy).Contents (Elt Ideal)) (x2 : (⟨S256, .f32⟩ : BufTy).Contents (Elt Ideal)) :
    Cert.ReferenceIdeal.Read.val_main_v19 (F := Ideal) x0 x1 x2
      = fun i : S32x256.Idx =>
          Cert.CovFc.fcNorm (Cert.CovFc.flatten (fun s d e => Cert.CovFc.twoPassCov (fun n f => x0 (ix3 s n f)) d e))
            (fun o k => x1 (ix2 o k)) (fun o => x2 (ix1 o)) (i 0) (i 1) :=
  funext fun i => val_main_v19_eq_fcNorm x0 x1 x2 i

end Cert.CovFc.Ref

end
-- ==== Proof.Finite.lean ====
/-
  Every observation is a real number.

  The inputs are assumed finite: for each input array, every entry's absolute value is below the word that denotes
  `+∞`, and the three statements hold together. Read in the extended reals, an entry whose absolute value
  `max x (-x)` is below `⊤` is neither `⊤` nor `⊥`, so it is a real. Only the array of observations is needed here.
-/
import proofs.«160932_j68101001445527_2_alg».proof.Defs
import Idealize.ShloMosaic.Lib.ReduceAll
import Idealize.ShloMosaic.Lib.ValueIdx
import Idealize.ShloMosaic.PureOps.Ideal.Laws

noncomputable section

namespace Cert.CovFc.Fin

open Idealize.ShloMosaic Idealize.SL.Sem

/-- The scalar shape has one index. -/
instance : Subsingleton Cert.Pre_finite_inputs.S_.Idx := ⟨fun a b => funext fun d => d.elim0⟩

/-- The word `0x7F800000` denotes `+∞`. -/
theorem top_word : Ideal.ofBits .f32 0x7F800000#32 = (⊤ : EReal) := by
  simp [Ideal.ofBits, Ideal.ieee]

/-- An extended real whose absolute value is below `⊤` is a real: at `⊤` and at `⊥` the absolute value is `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- An entry whose absolute value compares below an entry denoting `+∞` is a real. -/
theorem entry_real {s : Shape} (x b : FVec Ideal s .f32) (i : s.Idx) (hb : b i = Ideal.ofBits .f32 0x7F800000#32)
    (h : cmpf .olt (Host.absf x) b i = 1#1) : ∃ r : ℝ, x i = (r : EReal) := by
  have h' : Ideal.cmp .olt (max (x i) (-(x i))) (b i) = 1#1 := h
  rw [hb, top_word] at h'
  simp only [Ideal.cmp] at h'
  refine real_of_abs_lt_top (x i) ?_
  by_contra hn
  rw [decide_eq_false hn] at h'
  exact absurd h' (by decide)

/-- Under the finiteness assumption every entry of the array of observations is a real, on every device: the
    assumption is a conjunction of three statements "all entries of this array are finite", the first of which is
    about the observations, and "all" gives each entry. -/
theorem x_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S32x50000x64.Idx) :
    ∃ r : ℝ, m ((c.tc : Thread Cert.KernelIdeal.nD Cert.KernelIdeal.τ).loc Cert.KernelIdeal.main_arg0) i = (r : EReal) := by
  have h0 := congrFun (h c) ValueIdx.ix0
  dsimp only [Cert.Pre_finite_inputs.fn] at h0
  obtain ⟨h01, _⟩ := IntOp.andi_eq_one.1 (show IntOp.andi _ _ = 1#1 from h0)
  obtain ⟨hx, _⟩ := IntOp.andi_eq_one.1 (show IntOp.andi _ _ = 1#1 from h01)
  have he := Host.reduce_andi_all _ _ _ _ _ hx i
  exact entry_real _ _ i rfl he

end Cert.CovFc.Fin

end
-- ==== Proof.lean ====
/-
  Per-sample covariance, a linear layer and a row normalisation: the kernel against its reference, over the extended reals.

  Both programs take `x : [32, 50000, 64]`, `W : [256, 4096]`, `b : [256]`. For each of the 32 samples they form the
  Bessel-corrected 64×64 covariance of the 50000 observations, flatten it to 4096 entries, apply `flat ↦ flat·Wᵀ + b`, and
  divide each row of the result by its Euclidean norm clamped below.

  * The reference centres the observations and contracts them: `∑ₙ (xₙd − μd)(xₙe − μe) / (N − 1)`, `μ = (∑ₙ xₙ)/N`.
  * The kernel works in one pass on the array folded four observations to a row: the four diagonal 64×64 blocks of the
    folded Gram matrix add up to `∑ₙ xₙd·xₙe`, the four 64-segments of the folded column sums to `∑ₙ xₙd`, and its entry is
    `(∑ₙ xₙd·xₙe − (∑ₙ xₙd)(∑ₙ xₙe)/N) / (N − 1)`.

  The two entries agree when the observations are real numbers (`Cert.CovFc.foldedCov_eq_twoPass`: a reindexing, and the
  identity `∑(a − ā)(b − b̄) = ∑ab − (∑a)(∑b)/N`, which distributes products over sums and so is used only under the
  precondition that every input is finite). The linear layer and the normalisation are the same function on both sides
  (`Cert.CovFc.fcNorm`), a matrix product on the chip and the host's being one contraction at the exact values.

  The kernel program's run with its result named is `Cert.CovFc.KernelRun.run_value`; the reference's is its generated run,
  read one operation at a time (`Cert.CovFc.Ref.val_main_v19_eq_fcNorm_fun`). The printed kernel and its idealisation are
  one text (no operation was rewritten), so there is nothing to preserve.
-/
import proofs.«160932_j68101001445527_2_alg».proof.Defs
import proofs.«160932_j68101001445527_2_alg».proof.Proof.Gen.Kernel
import proofs.«160932_j68101001445527_2_alg».proof.Proof.Gen.Kernel.Skeleton
import proofs.«160932_j68101001445527_2_alg».proof.Proof.Gen.Kernel.Launch
import proofs.«160932_j68101001445527_2_alg».proof.Proof.Gen.Kernel.Points
import proofs.«160932_j68101001445527_2_alg».proof.Proof.Gen.Kernel.Frame
import proofs.«160932_j68101001445527_2_alg».proof.Proof.Gen.KernelIdeal
import proofs.«160932_j68101001445527_2_alg».proof.Proof.Gen.KernelIdeal.Skeleton
import proofs.«160932_j68101001445527_2_alg».proof.Proof.Gen.KernelIdeal.Launch
import proofs.«160932_j68101001445527_2_alg».proof.Proof.Gen.KernelIdeal.Points
import proofs.«160932_j68101001445527_2_alg».proof.Proof.Gen.KernelIdeal.Frame
import proofs.«160932_j68101001445527_2_alg».proof.Proof.Gen.ReferenceIdeal
import proofs.«160932_j68101001445527_2_alg».proof.Proof.Gen.Pre_finite_inputs
import proofs.«160932_j68101001445527_2_alg».proof.Proof.Gen.ReferenceIdeal.Run
import proofs.«160932_j68101001445527_2_alg».proof.Proof.Gen.ReferenceIdeal.Read
import proofs.«160932_j68101001445527_2_alg».proof.Proof.Spec
import proofs.«160932_j68101001445527_2_alg».proof.Proof.KernelRun
import proofs.«160932_j68101001445527_2_alg».proof.Proof.RefValue
import proofs.«160932_j68101001445527_2_alg».proof.Proof.Finite
import Idealize.ShloMosaic.Adequacy
import Idealize.ShloMosaic.Init

noncomputable section

namespace Cert.Proof

open Idealize.ShloMosaic Idealize.ShloMosaic.ValueIdx Idealize.SL.Sem

/-- The printed kernel runs and leaves its arguments as launched. -/
theorem frame_kernel : Cert.frame_Kernel := fun m ρ _ => Cert.Kernel.Gen.frame m ρ

/-- So does its reading at the exact values. -/
theorem frame_kernelIdeal : Cert.frame_KernelIdeal := fun m ρ _ => Cert.KernelIdeal.Gen.frame m ρ

/-- The reference is a line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the exact reading. -/
theorem preserves : Cert.preserves_Kernel_KernelIdeal := trivial

/-- From memories that agree on finite arguments both programs end with `fcNorm` of the flattened covariances, the
    kernel's in one pass over the folded array, the reference's in two: one array. -/
theorem algebraic : Cert.algebraic_KernelIdeal_ReferenceIdeal := by
  intro m ρ m' ρ' hpre hagree
  refine ⟨fun c => Cert.CovFc.KernelRun.kernelResult (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.CovFc.KernelRun.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2.1, (hagree c).2.2,
    Cert.CovFc.Ref.val_main_v19_eq_fcNorm_fun]
  unfold Cert.CovFc.KernelRun.kernelResult
  have hcov : (fun (s : Fin 32) (d e : Fin 64) => Cert.CovFc.twoPassCov
        (fun n f => (m ((c.tc : Thread Cert.KernelIdeal.nD Cert.KernelIdeal.τ).loc Cert.KernelIdeal.main_arg0) : Cert.KernelIdeal.S32x50000x64.Idx → EReal) (ix3 s n f)) d e)
      = fun s d e => Cert.CovFc.foldedCov (Cert.CovFc.fold
        (fun n f => (m ((c.tc : Thread Cert.KernelIdeal.nD Cert.KernelIdeal.τ).loc Cert.KernelIdeal.main_arg0) : Cert.KernelIdeal.S32x50000x64.Idx → EReal) (ix3 s n f))) d e :=
    funext fun s => funext fun d => funext fun e =>
      (Cert.CovFc.foldedCov_eq_twoPass _ (fun n f => Cert.CovFc.Fin.x_real m hpre c (ix3 s n f)) d e).symm
  funext i
  exact congrArg (fun cov => Cert.CovFc.fcNorm (Cert.CovFc.flatten cov) _ _ _ _) hcov

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
